-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x256 : Shape := ⟨4, ![16, 128, 128, 256]⟩
abbrev S512x256 : Shape := ⟨2, ![512, 256]⟩
abbrev S256 : Shape := ⟨1, ![256]⟩
abbrev S_ : Shape := ⟨0, ![]⟩

class Facts : Prop where
  bcast_S_S16x128x128x256 : S_.BroadcastsInDim S16x128x128x256 (![] : Fin 0 → Fin S16x128x128x256.rank)
  reducesTo_S16x128x128x256_S_d0_1_2_3 : S16x128x128x256.ReducesTo [0, 1, 2, 3] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x128x128x256 .f32) (main_arg1 : FVec F S16x128x128x256 .f32) (main_arg2 : FVec F S512x256 .f32) (main_arg3 : FVec F S256 .f32) : IVec S_ 1 :=
  let main_v0 : FVec F S16x128x128x256 .f32 := Host.absf main_arg0
  let main_cst : FVec F S_ .f32 := constant S_ .f32 0x7F800000#32
  let main_v1 : FVec F S16x128x128x256 .f32 := broadcastInDim S16x128x128x256 ![] bcast_S_S16x128x128x256 main_cst
  let main_v2 : IVec S16x128x128x256 1 := cmpf .olt main_v0 main_v1
  let main_c : IVec S_ 1 := constantI S_ 1 1#1
  let main_v3 : IVec S_ 1 := (fun x v => Host.reduce IntOp.andi x v reducesTo_S16x128x128x256_S_d0_1_2_3 h_S_) main_v2 main_c
  let main_v4 : FVec F S16x128x128x256 .f32 := Host.absf main_arg1
  let main_cst_0 : FVec F S_ .f32 := constant S_ .f32 0x7F800000#32
  let main_v5 : FVec F S16x128x128x256 .f32 := broadcastInDim S16x128x128x256 ![] bcast_S_S16x128x128x256 main_cst_0
  let main_v6 : IVec S16x128x128x256 1 := cmpf .olt main_v4 main_v5
  let main_c_1 : IVec S_ 1 := constantI S_ 1 1#1
  let main_v7 : IVec S_ 1 := (fun x v => Host.reduce IntOp.andi x v reducesTo_S16x128x128x256_S_d0_1_2_3 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x128x128x256 : Shape := ⟨4, ![16, 128, 128, 256]⟩
abbrev S512x256 : Shape := ⟨2, ![512, 256]⟩
abbrev S256 : Shape := ⟨1, ![256]⟩
abbrev S256x256 : Shape := ⟨2, ![256, 256]⟩
abbrev S1x256 : Shape := ⟨2, ![1, 256]⟩
abbrev S2048x256 : Shape := ⟨2, ![2048, 256]⟩
abbrev S1x64x128x256 : Shape := ⟨4, ![1, 64, 128, 256]⟩
abbrev S64x256 : Shape := ⟨2, ![64, 256]⟩
abbrev S64x1 : Shape := ⟨2, ![64, 1]⟩
abbrev S1x64x32x256 : Shape := ⟨4, ![1, 64, 32, 256]⟩
abbrev S64x32x256 : Shape := ⟨3, ![64, 32, 256]⟩
abbrev S64x32 : Shape := ⟨2, ![64, 32]⟩
abbrev S64 : Shape := ⟨1, ![64]⟩

abbrev nBuf : Space → Nat
  | .hbm => 10
  | .vmem => 9
  | .smem => 0
  | _ => 0

abbrev bufTy : (tb : Table) → Fin (tcTables nBuf tb) → BufTy
  | .hbm, ⟨0, _⟩ => ⟨S16x128x128x256, .f32⟩
  | .hbm, ⟨1, _⟩ => ⟨S16x128x128x256, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256x256, .bf16⟩
  | .hbm, ⟨6, _⟩ => ⟨S256x256, .f32⟩
  | .hbm, ⟨7, _⟩ => ⟨S256x256, .bf16⟩
  | .hbm, ⟨8, _⟩ => ⟨S1x256, .f32⟩
  | .hbm, ⟨9, _⟩ => ⟨S2048x256, .f32⟩
  | .local _ .vmem, ⟨0, _⟩ => ⟨S1x64x128x256, .f32⟩
  | .local _ .vmem, ⟨1, _⟩ => ⟨S1x64x128x256, .f32⟩
  | .local _ .vmem, ⟨2, _⟩ => ⟨S1x64x128x256, .f32⟩
  | .local _ .vmem, ⟨3, _⟩ => ⟨S1x64x128x256, .f32⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S64x256, .f32⟩
  | .local _ .vmem, ⟨8, _⟩ => ⟨S64x256, .f32⟩
  | _, _ => ⟨S16x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def k0_off1 (c0_i32 : BitVec 32) : Fin 4 → Nat :=
  let c0 : Index := 0#32
  let c0_2 : Index := 0#32
  let c32_i32 : BitVec 32 := 32#32
  let v3 : BitVec 32 := Scalar.muli c0_i32 c32_i32
  let v4 : Index := Scalar.indexCast v3
  let c0_3 : Index := 0#32
  ![0, 0, v4.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S512x256_S256x256_0_0 : S512x256.Slices ![0, 0] S256x256
  bitsLt_bf16_f32 : FTy.bits .bf16 < FTy.bits .f32
  slices_S512x256_S256x256_256_0 : S512x256.Slices ![256, 0] S256x256
  shapeCasts_S256_S1x256 : S256.ShapeCasts S1x256
  h_S1x64x32x256 : 0 < S1x64x32x256.numel
  shapeCasts_S1x64x32x256_S64x32x256 : S1x64x32x256.ShapeCasts S64x32x256
  reduces_S64x32x256_S64x256 : S64x32x256.Reduces [1] S64x256
  reduces_S64x32x256_S64x32 : S64x32x256.Reduces [2] S64x32
  natLt_1_32 : 1 < 32
  reduces_S64x32_S64 : S64x32.Reduces [1] S64
  shapeCasts_S64_S64x1 : S64.ShapeCasts S64x1
  broadcasts_S64x1_S64x256 : S64x1.Broadcasts S64x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  dot_S64x256_S256x256_S64x256_1_0_0_1_n_n_wf : DotDims.WF S64x256 S256x256 S64x256 [1] [0] [0] [1] [] []
  hrank0 : 0 < grid0.rank
  k0_off1_inb : ∀ (r : Fin 4), ∀ a, (k0_off1 (BitVec.ofNat 32 r.val)) a + S1x64x32x256.size a ≤ S1x64x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x256.size a ≤ S16x128x128x256.size a
  hwx0_0 : ∀ i : grid0.Coords, EltTy.bits .f32 = 32 ∨ (Rect.block (s := S16x128x128x256) S1x64x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x256.size a ≤ S16x128x128x256.size a
  hwx0_1 : ∀ i : grid0.Coords, EltTy.bits .f32 = 32 ∨ (Rect.block (s := S16x128x128x256) S1x64x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S2048x256.size a
  hwx0_5 : ∀ i : grid0.Coords, EltTy.bits .f32 = 32 ∨ (Rect.block (s := S2048x256) S64x256.size (cc0_transform_5 i) (hinb0_5 i)).WholeWords (EltTy.packing .f32)

variable [Facts₀]

def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_arg0) S1x64x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x128x128x256 : Shape := ⟨4, ![16, 128, 128, 256]⟩
abbrev S512x256 : Shape := ⟨2, ![512, 256]⟩
abbrev S256 : Shape := ⟨1, ![256]⟩
abbrev S_ : Shape := ⟨0, ![]⟩
abbrev S16x128x128 : Shape := ⟨3, ![16, 128, 128]⟩
abbrev S16x128 : Shape := ⟨2, ![16, 128]⟩
abbrev S16x128x256 : Shape := ⟨3, ![16, 128, 256]⟩
abbrev S16x128x1 : Shape := ⟨3, ![16, 128, 1]⟩
abbrev S16x128x512 : Shape := ⟨3, ![16, 128, 512]⟩
abbrev S2048x512 : Shape := ⟨2, ![2048, 512]⟩
abbrev S2048x256 : Shape := ⟨2, ![2048, 256]⟩
abbrev S1x256 : Shape := ⟨2, ![1, 256]⟩

abbrev nBuf : Space → Nat
  | .hbm => 37
  | .vmem => 0
  | .smem => 0
  | _ => 0

abbrev bufTy : (tb : Table) → Fin (tcTables nBuf tb) → BufTy
  | .hbm, ⟨0, _⟩ => ⟨S16x128x128x256, .f32⟩
  | .hbm, ⟨1, _⟩ => ⟨S16x128x128x256, .f32⟩
  | .hbm, ⟨2, _⟩ => ⟨S512x256, .f32⟩
  | .hbm, ⟨3, _⟩ => ⟨S256, .f32⟩
  | .hbm, ⟨4, _⟩ => ⟨S_, .f32⟩
  | .hbm, ⟨5, _⟩ => ⟨S16x128x128x256, .f32⟩
  | .hbm, ⟨6, _⟩ => ⟨S16x128x128x256, .i1⟩
  | .hbm, ⟨7, _⟩ => ⟨S_, .i1⟩
  | .hbm, ⟨8, _⟩ => ⟨S16x128x128, .i1⟩
  | .hbm, ⟨9, _⟩ => ⟨S16x128x128, .i32⟩
  | .hbm, ⟨10, _⟩ => ⟨S_, .i32⟩
  | .hbm, ⟨11, _⟩ => ⟨S16x128, .i32⟩
  | .hbm, ⟨12, _⟩ => ⟨S16x128, .f32⟩
  | .hbm, ⟨13, _⟩ => ⟨S_, .f32⟩
  | .hbm, ⟨14, _⟩ => ⟨S16x128x256, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128x1, .f32⟩
  | .hbm, ⟨19, _⟩ => ⟨S16x128x256, .f32⟩
  | .hbm, ⟨20, _⟩ => ⟨S16x128x256, .f32⟩
  | .hbm, ⟨21, _⟩ => ⟨S_, .f32⟩
  | .hbm, ⟨22, _⟩ => ⟨S16x128x256, .f32⟩
  | .hbm, ⟨23, _⟩ => ⟨S16x128x512, .f32⟩
  | .hbm, ⟨24, _⟩ => ⟨S2048x512, .f32⟩
  | .hbm, ⟨25, _⟩ => ⟨S2048x256, .f32⟩
  | .hbm, ⟨26, _⟩ => ⟨S1x256, .f32⟩
  | .hbm, ⟨27, _⟩ => ⟨S2048x256, .f32⟩
  | .hbm, ⟨28, _⟩ => ⟨S2048x256, .f32⟩
  | .hbm, ⟨29, _⟩ => ⟨S_, .f32⟩
  | .hbm, ⟨30, _⟩ => ⟨S_, .f32⟩
  | .hbm, ⟨31, _⟩ => ⟨S2048x256, .f32⟩
  | .hbm, ⟨32, _⟩ => ⟨S2048x256, .i1⟩
  | .hbm, ⟨33, _⟩ => ⟨S_, .f32⟩
  | .hbm, ⟨34, _⟩ => ⟨S2048x256, .f32⟩
  | .hbm, ⟨35, _⟩ => ⟨S2048x256, .f32⟩
  | .hbm, ⟨36, _⟩ => ⟨S2048x256, .f32⟩
  | _, _ => ⟨S16x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v19 : Ref sig .tc := ⟨.hbm, 36, rfl⟩

abbrev nD : Nat := 1
abbrev τ : Topo := Topo.v7x

variable {F : FTy → Type} [FloatOps F]

class Facts₀ : Prop where
  bcast_S_S16x128x128x256 : S_.BroadcastsInDim S16x128x128x256 (![] : Fin 0 → Fin S16x128x128x256.rank)
  reducesTo_S16x128x128x256_S16x128x128_d3 : S16x128x128x256.ReducesTo [3] S16x128x128
  h_S_ : 0 < S_.numel
  natLt_1_32 : 1 < 32
  reducesTo_S16x128x128_S16x128_d2 : S16x128x128.ReducesTo [2] S16x128
  reducesTo_S16x128x128x256_S16x128x256_d2 : S16x128x128x256.ReducesTo [2] S16x128x256
  bcast_S_S16x128 : S_.BroadcastsInDim S16x128 (![] : Fin 0 → Fin S16x128.rank)
  bcast_S16x128_S16x128x1_0_1 : S16x128.BroadcastsInDim S16x128x1 (![0, 1] : Fin 2 → Fin S16x128x1.rank)
  bcast_S16x128x1_S16x128x256_0_1_2 : S16x128x1.BroadcastsInDim S16x128x256 (![0, 1, 2] : Fin 3 → Fin S16x128x256.rank)
  concatenates_S16x128x256_S16x128x256_S16x128x512_d2 : Shape.Concatenates [S16x128x256, S16x128x256] S16x128x512 2
  shapeCasts_S16x128x512_S2048x512 : S16x128x512.ShapeCasts S2048x512
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  dot_S2048x512_S512x256_S2048x256_1_0_0_1_n_n_wf : DotDims.WF S2048x512 S512x256 S2048x256 [1] [0] [0] [1] [] []

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

class Facts : Prop extends Facts₀ where

variable [Facts]
-- ==== Proof.KPieces.lean ====
/-
  What one grid point's body leaves in the result block, as one term of the five input blocks.

  The body reads each of the two feature blocks [1, 64, 128, 256] in four pieces of 32 neighbour slots (offsets 0, 32, 64, 96
  along the slot axis), the two weight halves and the bias row whole, and stores one [64, 256] value.  `piece x c` is the
  c-th piece of a feature block; `bodyTerm` is the stored value as the composition of the body's arithmetic over the
  eight pieces and the three whole blocks, at any float instance.
-/
import proofs.«104938_j38774964748866_2_alg».proof.Proof.Gen.KernelIdeal.Frame
import Idealize.ShloMosaic.Lib.Pipeline.Value

set_option maxRecDepth 16384

noncomputable section

namespace Cert.KernelIdeal.KPay

open Cert.KernelIdeal Cert.KernelIdeal.Gen Idealize.ShloMosaic Idealize.ShloMosaic.TcCoe Idealize.SL.Sem
open Idealize.ShloMosaic.Tactic

variable {F : FTy → Type} [FloatOps F]

/-- The four pieces' rectangles lie inside the block. -/
theorem inb0 : ∀ a, (![0, 0, 0, 0] : Fin 4 → Nat) a + S1x64x32x256.size a ≤ S1x64x128x256.size a := by decide
theorem inb1 : ∀ a, (![0, 0, 32, 0] : Fin 4 → Nat) a + S1x64x32x256.size a ≤ S1x64x128x256.size a := by decide
theorem inb2 : ∀ a, (![0, 0, 64, 0] : Fin 4 → Nat) a + S1x64x32x256.size a ≤ S1x64x128x256.size a := by decide
theorem inb3 : ∀ a, (![0, 0, 96, 0] : Fin 4 → Nat) a + S1x64x32x256.size a ≤ S1x64x128x256.size a := by decide

/-- The four pieces of a feature block: slots 0–31, 32–63, 64–95, 96–127. -/
def piece0 (x : Vec F S1x64x128x256 .f32) : Vec F S1x64x32x256 .f32 := View.ld x (Rect.unit ![0, 0, 0, 0] S1x64x32x256.size inb0)
def piece1 (x : Vec F S1x64x128x256 .f32) : Vec F S1x64x32x256 .f32 := View.ld x (Rect.unit ![0, 0, 32, 0] S1x64x32x256.size inb1)
def piece2 (x : Vec F S1x64x128x256 .f32) : Vec F S1x64x32x256 .f32 := View.ld x (Rect.unit ![0, 0, 64, 0] S1x64x32x256.size inb2)
def piece3 (x : Vec F S1x64x128x256 .f32) : Vec F S1x64x32x256 .f32 := View.ld x (Rect.unit ![0, 0, 96, 0] S1x64x32x256.size inb3)

/-- The stored value: the body's arithmetic composed over the pieces of the own features x0, of the neighbours' x1, the
    two weight halves x2, x3 and the bias row x4. -/
def bodyTerm (x0 x1 : Vec F S1x64x128x256 .f32) (x2 x3 : Vec F S256x256 .bf16) (x4 : Vec F S1x256 .f32) : FVec F S64x256 .f32 :=
  k0_pay1
    (k0_pay13 (k0_pay10 (k0_pay3 (piece0 x0)) (k0_pay6 (piece1 x0)) (piece2 x0)) (piece3 x0))
    (k0_pay14 (k0_pay8 (k0_pay5 (piece0 x1)) (piece1 x1)) (k0_pay11 (k0_pay4 (piece0 x1)) (piece1 x1) (piece2 x1))
      (k0_pay12 (piece2 x1)) (FloatOps.ofBits .f32 0#32) (piece3 x1))
    (k0_pay15 x2) x3 x4

theorem zeros2 : (![0, 0] : Fin 2 → Nat) = fun _ => 0 := by
  funext a; match a with | ⟨0, _⟩ => rfl | ⟨1, _⟩ => rfl

/-- The result block after the body is `bodyTerm` of the input blocks: the one store covers the block, and every load
    reads its rectangle of a buffer that holds the input block. -/
theorem out_eq_bodyTerm (c : Dev nD) (i : grid0.Coords) (arg2 : Memref sig .tc .vmem S1x64x128x256 .f32) (harg2 : arg2.IsWhole) (arg3 : Memref sig .tc .vmem S1x64x128x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S64x256 .f32) (harg7 : arg7.IsWhole)
    (x0 : Vec F S1x64x128x256 .f32) (x1 : Vec F S1x64x128x256 .f32) (x2 : Vec F S256x256 .bf16) (x3 : Vec F S256x256 .bf16) (x4 : Vec F S1x256 .f32) :
    out0_A_5 c i arg2 harg2 arg3 harg3 arg4 harg4 arg5 harg5 arg6 harg6 arg7 harg7 x0 x1 x2 x3 x4 = bodyTerm x0 x1 x2 x3 x4 := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  rw [View.canon_unit_zero zeros2]
  simp only [View.readAt_eq_ld, Memref.IsWhole.read_unread, View.ld_unit_zero (S := S256x256) zeros2,
    View.ld_unit_zero (S := S1x256) zeros2]
  rfl

end Cert.KernelIdeal.KPay

end
-- ==== Proof.Spec.lean ====
/-
  The function both programs compute, on the extended reals.

  For one source node (one row r = 128·b + s of the result) let xs(m, k) and xn(m, k) be the node's own features and its
  neighbours' features, m ranging over the 128 neighbour slots and k over the 256 feature lanes.  A slot m is OCCUPIED
  when some lane of xn(m, ·) is not zero; cnt is the number of occupied slots.  The row of the result is

      leaky ( Σ_k (Σ_m xs(m,k)) · W(k, o)  +  Σ_k ((Σ_m xn(m,k)) / max(cnt, 1)) · W(256 + k, o)  +  bias(o) ),

  leaky p = p for p ≥ 0 and p · 0.01 otherwise (0.01 the single-precision word 0x3C23D70A, the same word in both
  programs, never evaluated).  `rowOut` is this expression of one row's data; `G` reads the row's data out of the four
  argument arrays, and `Gblk` out of one 64-row block of them with the two halves of W given separately.
-/
import Idealize.ShloMosaic.PureOps.Ideal
import Idealize.ShloMosaic.Lib.ValueIdx

noncomputable section

open scoped BigOperators

namespace Cert.Spec

open Idealize.ShloMosaic Idealize.ShloMosaic.ValueIdx

/-- The word of 1.0. -/
abbrev one : EReal := Ideal.ofBits .f32 0x3F800000#32
/-- The word of the negative slope, 0.01 rounded to single precision. -/
abbrev slope : EReal := Ideal.ofBits .f32 0x3C23D70A#32

open Classical in
/-- The number of occupied neighbour slots: slot m counts when one of its lanes is not zero. -/
def cnt (xn : Fin 128 → Fin 256 → EReal) : EReal :=
  ∑ m : Fin 128, if ∃ d : Fin 256, xn m d ≠ 0 then (1 : EReal) else 0

open Classical in
/-- The leaky rectifier with the slope word. -/
def leaky (p : EReal) : EReal := if 0 ≤ p then p else p * slope

/-- The mean of the neighbours' lane k over the occupied slots (over one slot when none is occupied). -/
def nmean (xn : Fin 128 → Fin 256 → EReal) (k : Fin 256) : EReal :=
  Ideal.div (∑ m : Fin 128, xn m k) (max (cnt xn) one)

/-- One entry of the result from one row's data: the own features xs, the neighbours' xn, column o of the two halves of
    the weight matrix, and the bias at o. -/
def rowOut (xs xn : Fin 128 → Fin 256 → EReal) (w1 w2 : Fin 256 → EReal) (b : EReal) : EReal :=
  leaky ((∑ k : Fin 256, (∑ m : Fin 128, xs m k) * w1 k + ∑ k : Fin 256, nmean xn k * w2 k) + b)

/-- Row r of the result belongs to batch r / 128 … -/
def rowB (r : Fin 2048) : Fin 16 := ⟨r.val / 128, by have := r.isLt; omega⟩
/-- … and source node r % 128. -/
def rowS (r : Fin 2048) : Fin 128 := ⟨r.val % 128, Nat.mod_lt _ (by norm_num)⟩

/-- Row k of the lower half of the weight matrix is its row 256 + k. -/
def lower (k : Fin 256) : Fin 512 := ⟨256 + k.val, by have := k.isLt; omega⟩
/-- Row k of the upper half is its row k. -/
def upper (k : Fin 256) : Fin 512 := ⟨k.val, by have := k.isLt; omega⟩

/-- The whole result as a function of the four argument arrays. -/
def G (x nb : (⟨4, ![16, 128, 128, 256]⟩ : Shape).Idx → EReal) (W : (⟨2, ![512, 256]⟩ : Shape).Idx → EReal)
    (bias : (⟨1, ![256]⟩ : Shape).Idx → EReal) : (⟨2, ![2048, 256]⟩ : Shape).Idx → EReal := fun j =>
  rowOut (fun m k => x (ix4 (rowB (j 0)) (rowS (j 0)) m k)) (fun m k => nb (ix4 (rowB (j 0)) (rowS (j 0)) m k))
    (fun k => W (ix2 (upper k) (j 1))) (fun k => W (ix2 (lower k) (j 1))) (bias (ix1 (j 1)))

/-- One 64-row block of the result from the block's data: the two feature blocks, the two halves of the weight matrix and
    the bias as a one-row matrix. -/
def Gblk (x0 x1 : (⟨4, ![1, 64, 128, 256]⟩ : Shape).Idx → EReal) (w1 w2 : (⟨2, ![256, 256]⟩ : Shape).Idx → EReal)
    (bb : (⟨2, ![1, 256]⟩ : Shape).Idx → EReal) : (⟨2, ![64, 256]⟩ : Shape).Idx → EReal := fun j =>
  rowOut (fun m k => x0 (ix4 (0 : Fin 1) (j 0) m k)) (fun m k => x1 (ix4 (0 : Fin 1) (j 0) m k))
    (fun k => w1 (ix2 k (j 1))) (fun k => w2 (ix2 k (j 1))) (bb (ix2 (0 : Fin 1) (j 1)))

end Cert.Spec

end
-- ==== Proof.LibConcatFeature.lean ====
/-
  TWO ARRAYS JOINED ALONG THEIR LAST (FEATURE) AXIS, READ AT AN INDEX. For `x₁ : [B, N, a]` and `x₂ : [B, N, b]` joined into
  `[B, N, c]`, entry `(p, q, f)` with `f < a` is `x₁(p, q, f)` and entry `(p, q, a + f)` is `x₂(p, q, f)`; the same with one more
  leading axis, for `[B, N, K, a]` and `[B, N, K, b]`. A sum over the joined axis `a + b` is the sum over the first `a`
  positions plus the sum over the last `b`: a contraction against the joined axis splits into the two pieces' contractions.
-/
import Idealize.ShloMosaic.Lib.ValueIdx
import Idealize.ShloMosaic.Lib.Pipeline.Value
import Mathlib.Algebra.BigOperators.Fin

namespace Cert.LibConcatFeature

open Idealize.ShloMosaic Idealize.ShloMosaic.ValueIdx
open scoped BigOperators

/-- Rank 3, a position of the first piece. -/
theorem concat3_left {α : Type} {B N a b c : ℕ} (x₁ : (⟨3, ![B, N, a]⟩ : Shape).Idx → α) (x₂ : (⟨3, ![B, N, b]⟩ : Shape).Idx → α)
    (h : Shape.Concatenates [⟨3, ![B, N, a]⟩, ⟨3, ![B, N, b]⟩] ⟨3, ![B, N, c]⟩ 2)
    (p : Fin B) (q : Fin N) (f : Fin a) (hf : f.val < c) :
    concatenate ⟨3, ![B, N, c]⟩ 2 [⟨⟨3, ![B, N, a]⟩, x₁⟩, ⟨⟨3, ![B, N, b]⟩, x₂⟩] h (ix3 p q ⟨f.val, hf⟩) = x₁ (ix3 p q f) :=
  concatenate_pair_apply_left 2 x₁ x₂ h _ rfl _ (fun t => match t with
    | ⟨0, _⟩ => rfl
    | ⟨1, _⟩ => rfl
    | ⟨2, _⟩ => rfl)

/-- Rank 3, a position of the second piece. -/
theorem concat3_right {α : Type} {B N a b c : ℕ} (x₁ : (⟨3, ![B, N, a]⟩ : Shape).Idx → α) (x₂ : (⟨3, ![B, N, b]⟩ : Shape).Idx → α)
    (h : Shape.Concatenates [⟨3, ![B, N, a]⟩, ⟨3, ![B, N, b]⟩] ⟨3, ![B, N, c]⟩ 2)
    (p : Fin B) (q : Fin N) (f : Fin b) (hf : a + f.val < c) :
    concatenate ⟨3, ![B, N, c]⟩ 2 [⟨⟨3, ![B, N, a]⟩, x₁⟩, ⟨⟨3, ![B, N, b]⟩, x₂⟩] h (ix3 p q ⟨a + f.val, hf⟩) = x₂ (ix3 p q f) :=
  concatenate_pair_apply_right 2 x₁ x₂ h _ rfl rfl _ (fun t ht => match t, ht with
    | ⟨0, _⟩, _ => rfl
    | ⟨1, _⟩, _ => rfl
    | ⟨2, _⟩, ht => absurd rfl ht) (Nat.add_comm f.val a)

/-- Rank 4, a position of the first piece. -/
theorem concat4_left {α : Type} {B N K a b c : ℕ} (x₁ : (⟨4, ![B, N, K, a]⟩ : Shape).Idx → α)
    (x₂ : (⟨4, ![B, N, K, b]⟩ : Shape).Idx → α)
    (h : Shape.Concatenates [⟨4, ![B, N, K, a]⟩, ⟨4, ![B, N, K, b]⟩] ⟨4, ![B, N, K, c]⟩ 3)
    (p : Fin B) (q : Fin N) (k : Fin K) (f : Fin a) (hf : f.val < c) :
    concatenate ⟨4, ![B, N, K, c]⟩ 3 [⟨⟨4, ![B, N, K, a]⟩, x₁⟩, ⟨⟨4, ![B, N, K, b]⟩, x₂⟩] h (ix4 p q k ⟨f.val, hf⟩)
      = x₁ (ix4 p q k f) :=
  concatenate_pair_apply_left 3 x₁ x₂ h _ rfl _ (fun t => match t with
    | ⟨0, _⟩ => rfl
    | ⟨1, _⟩ => rfl
    | ⟨2, _⟩ => rfl
    | ⟨3, _⟩ => rfl)

/-- Rank 4, a position of the second piece. -/
theorem concat4_right {α : Type} {B N K a b c : ℕ} (x₁ : (⟨4, ![B, N, K, a]⟩ : Shape).Idx → α)
    (x₂ : (⟨4, ![B, N, K, b]⟩ : Shape).Idx → α)
    (h : Shape.Concatenates [⟨4, ![B, N, K, a]⟩, ⟨4, ![B, N, K, b]⟩] ⟨4, ![B, N, K, c]⟩ 3)
    (p : Fin B) (q : Fin N) (k : Fin K) (f : Fin b) (hf : a + f.val < c) :
    concatenate ⟨4, ![B, N, K, c]⟩ 3 [⟨⟨4, ![B, N, K, a]⟩, x₁⟩, ⟨⟨4, ![B, N, K, b]⟩, x₂⟩] h (ix4 p q k ⟨a + f.val, hf⟩)
      = x₂ (ix4 p q k f) :=
  concatenate_pair_apply_right 3 x₁ x₂ h _ rfl rfl _ (fun t ht => match t, ht with
    | ⟨0, _⟩, _ => rfl
    | ⟨1, _⟩, _ => rfl
    | ⟨2, _⟩, _ => rfl
    | ⟨3, _⟩, ht => absurd rfl ht) (Nat.add_comm f.val a)

/-- A sum over `a + b` positions is the sum over the first `a` plus the sum over the last `b`, the positions written
    out as naturals below `a + b`. -/
theorem sum_split {R : Type*} [AddCommMonoid R] (a b : ℕ) (g : Fin (a + b) → R) :
    ∑ f : Fin (a + b), g f
      = ∑ f : Fin a, g ⟨f.val, Nat.lt_add_right b f.isLt⟩ + ∑ d : Fin b, g ⟨a + d.val, Nat.add_lt_add_left d.isLt a⟩ := by
  rw [Fin.sum_univ_add]
  rfl

end Cert.LibConcatFeature
-- ==== Proof.KMath.lean ====
/-
  The arithmetic facts behind the occupied-slot count, on the extended reals.

  The kernel decides whether a neighbour slot is occupied by taking, over the slot's 256 lanes, the maximum of the
  indicator "this lane is not zero" (1.0 or 0.0, from −∞), comparing it with zero, and reading the resulting bit as a
  number.  `slotReal` is that computation of one slot's lanes; it is 1 when some lane is not zero and 0 otherwise.  The
  slots are summed in four runs of 32; a sum over 128 positions is the sum of the four runs' sums.
-/
import proofs.«104938_j38774964748866_2_alg».proof.Proof.Spec
import proofs.«104938_j38774964748866_2_alg».proof.Proof.LibConcatFeature
import Idealize.ShloMosaic.PureOps.Ideal.Laws

noncomputable section

open scoped BigOperators

namespace Cert.Spec

open Idealize.ShloMosaic Idealize.ShloMosaic.ValueIdx

/-- The word 0x3F800000 is the number one. -/
theorem one_eq : (Ideal.ofBits .f32 0x3F800000#32 : EReal) = 1 := by
  simp [Ideal.ofBits, Ideal.ieee, -EReal.coe_mul]; norm_num

/-- The word 0xFF800000 is −∞. -/
theorem negInf_eq : (Ideal.ofBits .f32 0xFF800000#32 : EReal) = ⊥ := by
  simp [Ideal.ofBits, Ideal.ieee]

/-- One slot's occupancy as the kernel computes it from the slot's lanes g. -/
def slotReal (g : Fin 256 → EReal) : EReal :=
  FloatOps.sitofp (F := Ideal) .f32
    (BitVec.setWidth 32
      (Ideal.cmp .ogt
        ((Finset.univ : Finset (Fin 256)).fold max (Ideal.ofBits .f32 0xFF800000#32)
          (fun d => Scalar.select (Ideal.cmp .one (g d) (Ideal.ofBits .f32 0x00000000#32))
            (Ideal.ofBits .f32 0x3F800000#32) (Ideal.ofBits .f32 0x00000000#32)))
        (Ideal.ofBits .f32 0x00000000#32)))

/-- The indicator of one lane: 1 where the lane is not zero, 0 where it is. -/
theorem lane_indicator (x : EReal) :
    Scalar.select (Ideal.cmp .one x (Ideal.ofBits .f32 0x00000000#32)) (Ideal.ofBits .f32 0x3F800000#32)
      (Ideal.ofBits .f32 0x00000000#32) = if x ≠ 0 then (1 : EReal) else 0 := by
  rw [Ideal.ofBits_zero_f32, one_eq]
  unfold Ideal.cmp Scalar.select
  by_cases h : x ≠ 0
  · simp [h]
  · simp [h]

open Classical in
/-- The maximum over the lanes of the indicators, from −∞, is above zero exactly when some lane is not zero. -/
theorem zero_lt_fold_iff (g : Fin 256 → EReal) :
    (0 : EReal) < (Finset.univ : Finset (Fin 256)).fold max ⊥ (fun d => if g d ≠ 0 then (1 : EReal) else 0)
      ↔ ∃ d, g d ≠ 0 := by
  rw [Finset.lt_fold_max]
  constructor
  · rintro (h | ⟨d, -, hd⟩)
    · exact absurd h (not_lt.mpr bot_le)
    · refine ⟨d, fun h0 => ?_⟩
      rw [if_neg (not_not.mpr h0)] at hd
      exact lt_irrefl _ hd
  · rintro ⟨d, hd⟩
    exact Or.inr ⟨d, Finset.mem_univ d, by rw [if_pos hd]; exact zero_lt_one⟩

/-- A slot reads 1 when some lane of it is not zero and 0 otherwise (however the alternative is decided). -/
theorem slotReal_eq (g : Fin 256 → EReal) [Decidable (∃ d, g d ≠ 0)] :
    slotReal g = if ∃ d, g d ≠ 0 then (1 : EReal) else 0 := by
  unfold slotReal
  rw [show (fun d => Scalar.select (Ideal.cmp .one (g d) (Ideal.ofBits .f32 0x00000000#32))
        (Ideal.ofBits .f32 0x3F800000#32) (Ideal.ofBits .f32 0x00000000#32))
      = fun d => if g d ≠ 0 then (1 : EReal) else 0 from funext fun d => lane_indicator (g d),
    negInf_eq, Ideal.ofBits_zero_f32]
  have hc : Ideal.cmp .ogt ((Finset.univ : Finset (Fin 256)).fold max ⊥ (fun d => if g d ≠ 0 then (1 : EReal) else 0)) 0
      = BitVec.ofBool (decide (∃ d, g d ≠ 0)) := by
    unfold Ideal.cmp
    exact congrArg BitVec.ofBool (decide_eq_decide.mpr (zero_lt_fold_iff g))
  rw [hc]
  by_cases h : ∃ d, g d ≠ 0
  · rw [if_pos h, decide_eq_true h]
    show (((BitVec.setWidth 32 (BitVec.ofBool true)).toInt : ℝ) : EReal) = 1
    have : (BitVec.setWidth 32 (BitVec.ofBool true)).toInt = 1 := by decide
    rw [this]; norm_num
  · rw [if_neg h, decide_eq_false h]
    show (((BitVec.setWidth 32 (BitVec.ofBool false)).toInt : ℝ) : EReal) = 0
    have : (BitVec.setWidth 32 (BitVec.ofBool false)).toInt = 0 := by decide
    rw [this]; norm_num

/-- A sum over 128 positions is the sum of the sums over the four runs of 32. -/
theorem sum_four_runs {M : Type*} [AddCommMonoid M] (f : Fin 128 → M) :
    ((((∑ j : Fin 32, f ⟨j.val, by have := j.isLt; omega⟩) + ∑ j : Fin 32, f ⟨32 + j.val, by have := j.isLt; omega⟩)
        + ∑ j : Fin 32, f ⟨64 + j.val, by have := j.isLt; omega⟩) + ∑ j : Fin 32, f ⟨96 + j.val, by have := j.isLt; omega⟩)
      = ∑ m : Fin 128, f m := by
  have h3 := Cert.LibConcatFeature.sum_split 96 32 f
  have h2 := Cert.LibConcatFeature.sum_split 64 32 (fun q : Fin (64 + 32) => f ⟨q.val, by have := q.isLt; omega⟩)
  have h1 := Cert.LibConcatFeature.sum_split 32 32 (fun q : Fin (32 + 32) => f ⟨q.val, by have := q.isLt; omega⟩)
  rw [h3, h2, h1]

end Cert.Spec

end
-- ==== Proof.LibMidAxis.lean ====
/-
  Rank-3 blocks [a, b, c] read at explicit coordinates, at the ideal values: the sum over the MIDDLE axis, the maximum
  over the LAST axis (as the fold of max from the start word over that axis's coordinates), the sum of a matrix [a, b]
  along its rows into the vector [a]; and the cast that drops ONE leading unit axis, [1, a, b, c] → [a, b, c].
  General in the extents.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibMidAxis

open Idealize.ShloMosaic Idealize.ShloMosaic.ValueIdx

/-- A [1, a, b, c] block cast to [a, b, c] reads, at (i, j, k), the block at (0, i, j, k): a coordinate 0 on a unit axis
    adds nothing to the row-major position. -/
theorem shapeCast_1abc_abc_apply {α : Type} {a b c : ℕ} (x : (⟨4, ![1, a, b, c]⟩ : Shape).Idx → α)
    (h : (⟨4, ![1, a, b, c]⟩ : Shape).ShapeCasts ⟨3, ![a, b, c]⟩) (i : Fin a) (j : Fin b) (k : Fin c) :
    shapeCast ⟨3, ![a, b, c]⟩ x h (ix3 i j k) = x (ix4 (0 : Fin 1) i j k) :=
  shapeCast_apply x h _ _ (by
    rw [Shape.rowMajor_val_four, Shape.rowMajor_val_three]
    show ((0 * a + i.val) * b + j.val) * c + k.val = (i.val * b + j.val) * c + k.val
    simp only [Nat.zero_mul, Nat.zero_add])

/-- At the ideal values the sum of an [a, b, c] block over its middle axis reads, at (i, k), the sum over j of the block
    at (i, j, k). -/
theorem sum_axis1_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ j : Fin b, src (ix3 i j k) := by
  refine (Ideal.multiReduction_add_single src _ h hφ hacc (ix2 i k)).trans ?_
  refine Finset.sum_congr rfl fun j _ => ?_
  exact congrArg src (funext fun ax => Fin.ext (by match ax with | ⟨0, _⟩ => rfl | ⟨1, _⟩ => rfl | ⟨2, _⟩ => rfl))

/-- At the ideal values the maximum of an [a, b, c] block over its last axis reads, at (i, j), the fold of max from the
    start word's value over k of the block at (i, j, k). -/
theorem max_axis2_apply {a b c : ℕ} (src : FVec Ideal ⟨3, ![a, b, c]⟩ .f32) (acc : BitVec 32)
    (h : Shape.Reduces ⟨3, ![a, b, c]⟩ [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) := by
  refine (Ideal.multiReduction_maximumf_single src acc h hφ hacc (ix2 i j)).trans ?_
  refine congrArg (Finset.fold max _ · _) (funext fun k => ?_)
  exact congrArg src (funext fun ax => Fin.ext (by match ax with | ⟨0, _⟩ => rfl | ⟨1, _⟩ => rfl | ⟨2, _⟩ => rfl))

/-- At the ideal values the sum of a matrix [a, b] along its rows reads, at i, the sum over j of the matrix at (i, j). -/
theorem sum_rows_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src _ h hφ hacc (ix1 i)).trans ?_
  refine Finset.sum_congr rfl fun j _ => ?_
  exact congrArg src (funext fun ax => Fin.ext (by match ax with | ⟨0, _⟩ => rfl | ⟨1, _⟩ => rfl))

end Cert.LibMidAxis

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.KChunk.lean ====
/-
  The body's building blocks read at explicit coordinates, at the ideal values.

  A loaded piece [1, 64, 32, 256] of a feature block is cast to [64, 32, 256]; `runSum` adds its 32 slots lane by lane,
  `slotMax` takes, slot by slot, the maximum over the lanes of the indicator "not zero", and `countCol` turns such maxima
  into the column of the numbers of slots whose maximum is above a threshold.  Read at a row p: a piece's cast at (p, mm, k)
  is the block at slot 32·c + mm; a run's sum at (p, k) is the sum over its 32 slots; a run's count at p is the sum over its
  slots of the slot's occupancy (`Spec.slotReal`).
-/
import proofs.«104938_j38774964748866_2_alg».proof.Proof.KPieces
import proofs.«104938_j38774964748866_2_alg».proof.Proof.KMath
import proofs.«104938_j38774964748866_2_alg».proof.Proof.LibMidAxis
import proofs.«104938_j38774964748866_2_alg».proof.Proof.LibKeepdims

noncomputable section

open scoped BigOperators

namespace Cert.KernelIdeal.KPay

open Cert.KernelIdeal Cert.KernelIdeal.Gen Idealize.ShloMosaic Idealize.ShloMosaic.ValueIdx

/-- A loaded piece viewed as 64 rows of 32 slots of 256 lanes. -/
def cast3 (v : Vec Ideal S1x64x32x256 .f32) : FVec Ideal S64x32x256 .f32 :=
  shapeCast S64x32x256 v shapeCasts_S1x64x32x256_S64x32x256

/-- The sum of a run's 32 slots, lane by lane. -/
def runSum (w : FVec Ideal S64x32x256 .f32) : FVec Ideal S64x256 .f32 :=
  multiReduction .add [1] S64x256 w 0x00000000#32 reduces_S64x32x256_S64x256 (.inl rfl) rfl

/-- Slot by slot, the maximum over the lanes of the indicator "this lane is not zero", from −∞. -/
def slotMax (w : FVec Ideal S64x32x256 .f32) : FVec Ideal S64x32 .f32 :=
  multiReduction .maximumf [2] S64x32
    (select (cmpf .one w (broadcast S64x32x256 (Scalar.ofBits .f32 0x00000000#32)))
      (broadcast S64x32x256 (Scalar.ofBits .f32 0x3F800000#32)) (broadcast S64x32x256 (Scalar.ofBits .f32 0x00000000#32)))
    0xFF800000#32 reduces_S64x32x256_S64x32 (.inl rfl) rfl

/-- Row by row, the number of slots whose maximum is above the threshold z, as a column. -/
def countCol (M : FVec Ideal S64x32 .f32) (z : Ideal .f32) : FVec Ideal S64x1 .f32 :=
  shapeCast S64x1
    (multiReduction .add [1] S64 (sitofp .f32 (extui 32 (cmpf .ogt M (broadcast S64x32 z)) natLt_1_32)) 0x00000000#32
      reduces_S64x32_S64 (.inl rfl) rfl)
    shapeCasts_S64_S64x1

theorem cast3_apply (v : Vec Ideal S1x64x32x256 .f32) (p : Fin 64) (mm : Fin 32) (k : Fin 256) :
    cast3 v (ix3 p mm k) = v (ix4 (0 : Fin 1) p mm k) :=
  Cert.LibMidAxis.shapeCast_1abc_abc_apply v _ p mm k

theorem runSum_apply (w : FVec Ideal S64x32x256 .f32) (p : Fin 64) (k : Fin 256) :
    runSum w (ix2 p k) = ∑ mm : Fin 32, w (ix3 p mm k) :=
  Cert.LibMidAxis.sum_axis1_apply w _ _ _ p k

theorem slotMax_apply (w : FVec Ideal S64x32x256 .f32) (p : Fin 64) (mm : Fin 32) :
    slotMax w (ix2 p mm) = (Finset.univ : Finset (Fin 256)).fold max (Ideal.ofBits .f32 0xFF800000#32)
      (fun d => Scalar.select (Ideal.cmp .one (w (ix3 p mm d)) (Ideal.ofBits .f32 0x00000000#32))
        (Ideal.ofBits .f32 0x3F800000#32) (Ideal.ofBits .f32 0x00000000#32)) :=
  Cert.LibMidAxis.max_axis2_apply _ _ _ _ _ p mm

theorem countCol_apply (M : FVec Ideal S64x32 .f32) (z : Ideal .f32) (p : Fin 64) (u : Fin 1) :
    countCol M z (ix2 p u)
      = ∑ mm : Fin 32, FloatOps.sitofp (F := Ideal) .f32 (BitVec.setWidth 32 (Ideal.cmp .ogt (M (ix2 p mm)) z)) := by
  unfold countCol
  refine (Cert.LibKeepdims.shapeCast_a_a1_apply _ _ p u).trans ?_
  exact Cert.LibMidAxis.sum_rows_apply _ _ _ _ p

/-- A run's count at row p: the sum over its 32 slots of the slot's occupancy. -/
theorem count_run_apply (w : FVec Ideal S64x32x256 .f32) (p : Fin 64) (u : Fin 1) :
    countCol (slotMax w) (Scalar.ofBits .f32 0x00000000#32) (ix2 p u)
      = ∑ mm : Fin 32, Cert.Spec.slotReal (fun d => w (ix3 p mm d)) := by
  rw [countCol_apply]
  refine Finset.sum_congr rfl fun mm _ => ?_
  rw [slotMax_apply]
  rfl

/-! ### The four pieces at a slot -/

theorem piece0_apply (x : Vec Ideal S1x64x128x256 .f32) (p : Fin 64) (mm : Fin 32) (k : Fin 256) :
    piece0 x (ix4 (0 : Fin 1) p mm k) = x (ix4 (0 : Fin 1) p ⟨mm.val, by have := mm.isLt; omega⟩ k) :=
  congrArg x (funext fun a => Fin.ext (by
    match a with
    | ⟨0, _⟩ => rfl
    | ⟨1, _⟩ => show 0 + 1 * p.val = p.val; omega
    | ⟨2, _⟩ => show 0 + 1 * mm.val = mm.val; omega
    | ⟨3, _⟩ => show 0 + 1 * k.val = k.val; omega))

theorem piece1_apply (x : Vec Ideal S1x64x128x256 .f32) (p : Fin 64) (mm : Fin 32) (k : Fin 256) :
    piece1 x (ix4 (0 : Fin 1) p mm k) = x (ix4 (0 : Fin 1) p ⟨32 + mm.val, by have := mm.isLt; omega⟩ k) :=
  congrArg x (funext fun a => Fin.ext (by
    match a with
    | ⟨0, _⟩ => rfl
    | ⟨1, _⟩ => show 0 + 1 * p.val = p.val; omega
    | ⟨2, _⟩ => show 32 + 1 * mm.val = 32 + mm.val; omega
    | ⟨3, _⟩ => show 0 + 1 * k.val = k.val; omega))

theorem piece2_apply (x : Vec Ideal S1x64x128x256 .f32) (p : Fin 64) (mm : Fin 32) (k : Fin 256) :
    piece2 x (ix4 (0 : Fin 1) p mm k) = x (ix4 (0 : Fin 1) p ⟨64 + mm.val, by have := mm.isLt; omega⟩ k) :=
  congrArg x (funext fun a => Fin.ext (by
    match a with
    | ⟨0, _⟩ => rfl
    | ⟨1, _⟩ => show 0 + 1 * p.val = p.val; omega
    | ⟨2, _⟩ => show 64 + 1 * mm.val = 64 + mm.val; omega
    | ⟨3, _⟩ => show 0 + 1 * k.val = k.val; omega))

theorem piece3_apply (x : Vec Ideal S1x64x128x256 .f32) (p : Fin 64) (mm : Fin 32) (k : Fin 256) :
    piece3 x (ix4 (0 : Fin 1) p mm k) = x (ix4 (0 : Fin 1) p ⟨96 + mm.val, by have := mm.isLt; omega⟩ k) :=
  congrArg x (funext fun a => Fin.ext (by
    match a with
    | ⟨0, _⟩ => rfl
    | ⟨1, _⟩ => show 0 + 1 * p.val = p.val; omega
    | ⟨2, _⟩ => show 96 + 1 * mm.val = 96 + mm.val; omega
    | ⟨3, _⟩ => show 0 + 1 * k.val = k.val; omega))

end Cert.KernelIdeal.KPay

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.KBody.lean ====
/-
  The body's stored value at an entry (p, o) of the result block, at the ideal values, is the specification's row
  expression of row p of the two feature blocks, column o of the two weight halves and entry o of the bias row.

  The own features: the four runs' sums accumulate from zero, so the accumulated value at (p, k) is the sum over all 128
  slots.  The neighbours: the same sum, divided by the larger of the accumulated count and one; the accumulated count is
  the sum over the four runs of their slots' occupancies, i.e. the number of occupied slots.  The two products into zero
  accumulators are the plain contractions over the 256 lanes; the bias row is spread over the 64 rows; the final select
  keeps the sum where it is not below zero and multiplies it by the slope word elsewhere.
-/
import proofs.«104938_j38774964748866_2_alg».proof.Proof.KChunk
import proofs.«104938_j38774964748866_2_alg».proof.Proof.LibPlainDot
import proofs.«104938_j38774964748866_2_alg».proof.Proof.LibBiasRow

noncomputable section

open scoped BigOperators

namespace Cert.KernelIdeal.KPay

open Cert.KernelIdeal Cert.KernelIdeal.Gen Idealize.ShloMosaic Idealize.ShloMosaic.ValueIdx

/-- The accumulated sum of a feature block's four runs at (p, k): from zero, run after run. -/
def accSum (x : Vec Ideal S1x64x128x256 .f32) (p : Fin 64) (k : Fin 256) : EReal :=
  (((Ideal.ofBits .f32 0x00000000#32 + runSum (cast3 (piece0 x)) (ix2 p k)) + runSum (cast3 (piece1 x)) (ix2 p k))
    + runSum (cast3 (piece2 x)) (ix2 p k)) + runSum (cast3 (piece3 x)) (ix2 p k)

/-- It is the sum over all 128 slots. -/
theorem accSum_eq (x : Vec Ideal S1x64x128x256 .f32) (p : Fin 64) (k : Fin 256) :
    accSum x p k = ∑ m : Fin 128, x (ix4 (0 : Fin 1) p m k) := by
  unfold accSum
  simp only [runSum_apply, cast3_apply, piece0_apply, piece1_apply, piece2_apply, piece3_apply]
  rw [Ideal.ofBits_zero_f32, zero_add]
  exact Cert.Spec.sum_four_runs (fun m => x (ix4 (0 : Fin 1) p m k))

/-- The accumulated count of occupied slots of row p: from zero, run after run. -/
def accCount (x : Vec Ideal S1x64x128x256 .f32) (p : Fin 64) : EReal :=
  (((Ideal.ofBits .f32 0x00000000#32
        + countCol (slotMax (cast3 (piece0 x))) (Scalar.ofBits .f32 0x00000000#32) (ix2 p (0 : Fin 1)))
      + countCol (slotMax (cast3 (piece1 x))) (Scalar.ofBits .f32 0x00000000#32) (ix2 p (0 : Fin 1)))
    + countCol (slotMax (cast3 (piece2 x))) (Scalar.ofBits .f32 0x00000000#32) (ix2 p (0 : Fin 1)))
  + countCol (slotMax (cast3 (piece3 x))) (Scalar.ofBits .f32 0x00000000#32) (ix2 p (0 : Fin 1))

/-- It is the number of occupied slots of the row. -/
theorem accCount_eq (x : Vec Ideal S1x64x128x256 .f32) (p : Fin 64) :
    accCount x p = Cert.Spec.cnt (fun m d => x (ix4 (0 : Fin 1) p m d)) := by
  unfold accCount
  simp only [count_run_apply, cast3_apply, piece0_apply, piece1_apply, piece2_apply, piece3_apply]
  rw [Ideal.ofBits_zero_f32, zero_add]
  refine (Cert.Spec.sum_four_runs (fun m => Cert.Spec.slotReal (fun d => x (ix4 (0 : Fin 1) p m d)))).trans ?_
  unfold Cert.Spec.cnt
  refine Finset.sum_congr rfl fun m _ => ?_
  rw [Cert.Spec.slotReal_eq]
  by_cases h : ∃ d, x (ix4 (0 : Fin 1) p m d) ≠ 0
  · rw [if_pos h, if_pos h]
  · rw [if_neg h, if_neg h]

/-- The own features' operand of the first product, at (p, k). -/
theorem srcOperand_apply (x : Vec Ideal S1x64x128x256 .f32) (p : Fin 64) (k : Fin 256) :
    k0_pay13 (k0_pay10 (k0_pay3 (piece0 x)) (k0_pay6 (piece1 x)) (piece2 x)) (piece3 x) (ix2 p k)
      = ∑ m : Fin 128, x (ix4 (0 : Fin 1) p m k) :=
  (show _ = accSum x p k from rfl).trans (accSum_eq x p k)

/-- The neighbours' operand of the second product, at (p, k): the mean over the occupied slots. -/
theorem meanOperand_apply (x : Vec Ideal S1x64x128x256 .f32) (p : Fin 64) (k : Fin 256) :
    k0_pay14 (k0_pay8 (k0_pay5 (piece0 x)) (piece1 x)) (k0_pay11 (k0_pay4 (piece0 x)) (piece1 x) (piece2 x))
        (k0_pay12 (piece2 x)) (FloatOps.ofBits .f32 0#32) (piece3 x) (ix2 p k)
      = Cert.Spec.nmean (fun m d => x (ix4 (0 : Fin 1) p m d)) k := by
  have e : k0_pay14 (k0_pay8 (k0_pay5 (piece0 x)) (piece1 x)) (k0_pay11 (k0_pay4 (piece0 x)) (piece1 x) (piece2 x))
        (k0_pay12 (piece2 x)) (FloatOps.ofBits .f32 0#32) (piece3 x) (ix2 p k)
      = Ideal.div (accSum x p k)
          (broadcastTo S64x256
            (maximumf (fun j : S64x1.Idx =>
                (((Ideal.ofBits .f32 0x00000000#32
                      + countCol (slotMax (cast3 (piece0 x))) (Scalar.ofBits .f32 0x00000000#32) j)
                    + countCol (slotMax (cast3 (piece1 x))) (Scalar.ofBits .f32 0x00000000#32) j)
                  + countCol (slotMax (cast3 (piece2 x))) (Scalar.ofBits .f32 0x00000000#32) j)
                + countCol (slotMax (cast3 (piece3 x))) (Scalar.ofBits .f32 0x00000000#32) j)
              (broadcast S64x1 (Scalar.ofBits .f32 0x3F800000#32)))
            broadcasts_S64x1_S64x256 (ix2 p k)) := rfl
  rw [e, Cert.LibKeepdims.broadcastTo_a1_ab_apply _ _ p k, accSum_eq]
  show Ideal.div _ (max (accCount x p) Cert.Spec.one) = _
  rw [accCount_eq]
  rfl

end Cert.KernelIdeal.KPay

end
-- ==== Proof.KOut.lean ====
/-
  One grid point's result block is the block specification of its five input blocks.

  The stored value is the select between the pre-activation and its product with the slope word; the pre-activation at
  (p, o) is the sum of the two contractions over the 256 lanes — the own features' sums against the upper weight half, the
  neighbours' means against the lower half — plus entry o of the bias row.
-/
import proofs.«104938_j38774964748866_2_alg».proof.Proof.KBody

noncomputable section

open scoped BigOperators

namespace Cert.KernelIdeal.KPay

open Cert.KernelIdeal Cert.KernelIdeal.Gen Idealize.ShloMosaic Idealize.ShloMosaic.ValueIdx

/-- The value before the rectifier, from the two operands of the products, the two weight halves and the bias row. -/
def preAct (A B : FVec Ideal S64x256 .bf16) (x2 x3 : FVec Ideal S256x256 .bf16) (x4 : FVec Ideal S1x256 .f32) :
    FVec Ideal S64x256 .f32 :=
  addf
    (addf
      (matmul dot_S64x256_S256x256_S64x256_1_0_0_1_n_n none A (shapeCast S256x256 x2 shapeCasts_S256x256_S256x256)
        (constant S64x256 .f32 0x00000000#32))
      (matmul dot_S64x256_S256x256_S64x256_1_0_0_1_n_n none B (shapeCast S256x256 x3 shapeCasts_S256x256_S256x256)
        (constant S64x256 .f32 0x00000000#32)))
    (broadcastTo S64x256 (shapeCast S1x256 x4 shapeCasts_S1x256_S1x256) broadcasts_S1x256_S64x256)

theorem preAct_apply (A B : FVec Ideal S64x256 .bf16) (x2 x3 : FVec Ideal S256x256 .bf16) (x4 : FVec Ideal S1x256 .f32)
    (p : Fin 64) (o : Fin 256) :
    preAct A B x2 x3 x4 (ix2 p o)
      = (∑ k : Fin 256, A (ix2 p k) * x2 (ix2 k o) + ∑ k : Fin 256, B (ix2 p k) * x3 (ix2 k o)) + x4 (ix2 (0 : Fin 1) o) := by
  unfold preAct
  rw [addf_apply, addf_apply, shapeCast_self, shapeCast_self, shapeCast_self]
  exact congrArg₂ (· + ·)
    (congrArg₂ (· + ·)
      (Cert.LibPlainDot.matmul_zero_apply dot_S64x256_S256x256_S64x256_1_0_0_1_n_n rfl rfl rfl rfl rfl rfl none A x2 p o)
      (Cert.LibPlainDot.matmul_zero_apply dot_S64x256_S256x256_S64x256_1_0_0_1_n_n rfl rfl rfl rfl rfl rfl none B x3 p o))
    (Cert.LibBiasRow.row_spread_apply _ x4 p o)

/-- The select between a value and its product with the slope word, on the comparison with zero, is the rectifier. -/
theorem select_leaky (P : EReal) :
    Scalar.select (Ideal.cmp .oge P (Ideal.ofBits .f32 0x00000000#32)) P (P * Ideal.ofBits .f32 0x3C23D70A#32)
      = Cert.Spec.leaky P := by
  rw [Ideal.ofBits_zero_f32]
  unfold Cert.Spec.leaky Ideal.cmp Scalar.select
  by_cases h : (0 : EReal) ≤ P
  · simp [h]
  · simp [h]

/-- The stored value at (p, o). -/
theorem bodyTerm_apply (x0 x1 : Vec Ideal S1x64x128x256 .f32) (x2 x3 : Vec Ideal S256x256 .bf16) (x4 : Vec Ideal S1x256 .f32)
    (p : Fin 64) (o : Fin 256) :
    bodyTerm x0 x1 x2 x3 x4 (ix2 p o)
      = Cert.Spec.rowOut (fun m k => x0 (ix4 (0 : Fin 1) p m k)) (fun m k => x1 (ix4 (0 : Fin 1) p m k))
          (fun k => x2 (ix2 k o)) (fun k => x3 (ix2 k o)) (x4 (ix2 (0 : Fin 1) o)) := by
  have e : bodyTerm x0 x1 x2 x3 x4 (ix2 p o)
      = Scalar.select
          (Ideal.cmp .oge
            (preAct (k0_pay13 (k0_pay10 (k0_pay3 (piece0 x0)) (k0_pay6 (piece1 x0)) (piece2 x0)) (piece3 x0))
              (k0_pay14 (k0_pay8 (k0_pay5 (piece0 x1)) (piece1 x1)) (k0_pay11 (k0_pay4 (piece0 x1)) (piece1 x1) (piece2 x1))
                (k0_pay12 (piece2 x1)) (FloatOps.ofBits .f32 0#32) (piece3 x1)) x2 x3 x4 (ix2 p o))
            (Ideal.ofBits .f32 0x00000000#32))
          (preAct (k0_pay13 (k0_pay10 (k0_pay3 (piece0 x0)) (k0_pay6 (piece1 x0)) (piece2 x0)) (piece3 x0))
              (k0_pay14 (k0_pay8 (k0_pay5 (piece0 x1)) (piece1 x1)) (k0_pay11 (k0_pay4 (piece0 x1)) (piece1 x1) (piece2 x1))
                (k0_pay12 (piece2 x1)) (FloatOps.ofBits .f32 0#32) (piece3 x1)) x2 x3 x4 (ix2 p o))
          (preAct (k0_pay13 (k0_pay10 (k0_pay3 (piece0 x0)) (k0_pay6 (piece1 x0)) (piece2 x0)) (piece3 x0))
              (k0_pay14 (k0_pay8 (k0_pay5 (piece0 x1)) (piece1 x1)) (k0_pay11 (k0_pay4 (piece0 x1)) (piece1 x1) (piece2 x1))
                (k0_pay12 (piece2 x1)) (FloatOps.ofBits .f32 0#32) (piece3 x1)) x2 x3 x4 (ix2 p o)
            * Ideal.ofBits .f32 0x3C23D70A#32) := rfl
  rw [e, select_leaky, preAct_apply]
  simp only [srcOperand_apply, meanOperand_apply]
  rfl

/-- The result block after the body, at the ideal values, is the block specification of the input blocks. -/
theorem out_eq_Gblk (c : Dev nD) (i : grid0.Coords) (arg2 : Memref sig .tc .vmem S1x64x128x256 .f32) (harg2 : arg2.IsWhole) (arg3 : Memref sig .tc .vmem S1x64x128x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S64x256 .f32) (harg7 : arg7.IsWhole)
    (x0 x1 : Vec Ideal S1x64x128x256 .f32) (x2 x3 : Vec Ideal S256x256 .bf16) (x4 : Vec Ideal S1x256 .f32) :
    out0_A_5 (F := Ideal) c i arg2 harg2 arg3 harg3 arg4 harg4 arg5 harg5 arg6 harg6 arg7 harg7 x0 x1 x2 x3 x4
      = Cert.Spec.Gblk x0 x1 x2 x3 x4 := by
  rw [out_eq_bodyTerm]
  funext j
  obtain ⟨p, o, rfl⟩ : ∃ (p : Fin 64) (o : Fin 256), j = ix2 p o := ⟨j 0, j 1, eq_ix2 j⟩
  rw [bodyTerm_apply]
  rfl

end Cert.KernelIdeal.KPay

end
-- ==== Proof.KPoints.lean ====
/-
  The grid of the kernel and the blocks its windows move, as arithmetic.

  The grid is 16 × 2: point t has coordinates (b, h).  The two feature arrays [16, 128, 128, 256] are cut into blocks
  [1, 64, 128, 256] and the point reads block (b, h, 0, 0) of each; the two halves of the weight matrix and the bias row are
  single blocks, (0, 0) at every point; the result [2048, 256] is cut into blocks [64, 256] and the point writes block
  (2·b + h, 0).  The relations are decided once over the 32 points, and every block of the result is some point's.
-/
import proofs.«104938_j38774964748866_2_alg».proof.Proof.Gen.KernelIdeal.Launch

noncomputable section

namespace Cert.KernelIdeal.KValue

open Cert.KernelIdeal Cert.KernelIdeal.Gen Idealize.ShloMosaic

/-- The block indices at a point: the result's block is 2·b + h where (b, h) is the feature blocks' index, b ≤ 15, h ≤ 1;
    the neighbours' block moves with the node's own; the weights and the bias stay at block (0, 0). -/
theorem idx_facts : ∀ t : Fin cfg0.N,
    win0_5.index t (0 : Fin 2) = 2 * win0_0.index t (0 : Fin 4) + win0_0.index t (1 : Fin 4)
    ∧ win0_5.index t (1 : Fin 2) = 0
    ∧ win0_0.index t (0 : Fin 4) ≤ 15 ∧ win0_0.index t (1 : Fin 4) ≤ 1
    ∧ win0_0.index t (2 : Fin 4) = 0 ∧ win0_0.index t (3 : Fin 4) = 0
    ∧ win0_1.index t (0 : Fin 4) = win0_0.index t (0 : Fin 4) ∧ win0_1.index t (1 : Fin 4) = win0_0.index t (1 : Fin 4)
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every one of the result's 32 row blocks is some point's. -/
theorem idx_onto : ∀ q : Fin 32, ∃ t : Fin cfg0.N, win0_5.index t (0 : Fin 2) = q.val :=
  (by decide +kernel : ∀ q : Fin 32, ∃ t : Fin grid0.N, win0_5.index t (0 : Fin 2) = q.val)

end Cert.KernelIdeal.KValue

end
-- ==== Proof.KBlocks.lean ====
/-
  The two feature blocks the body sees at a grid point, read out of the argument arrays.

  At the point whose feature-block index is (b, h, 0, 0) the block [1, 64, 128, 256] of a feature array [16, 128, 128, 256] has,
  at (0, p, mm, k), the array's entry (b, 64·h + p, mm, k): a block's coordinate is its index times its size plus the
  coordinate inside the block, and no host operation touches the two feature arrays before the region.
-/
import proofs.«104938_j38774964748866_2_alg».proof.Proof.Gen.KernelIdeal.Frame.Runs
import proofs.«104938_j38774964748866_2_alg».proof.Proof.KPoints
import Idealize.ShloMosaic.Lib.ValueIdx
import Idealize.ShloMosaic.Lib.Pipeline.Value

noncomputable section

namespace Cert.KernelIdeal.KValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The node's own features: entry (0, p, mm, k) of the block at point t is entry (b, s, mm, k) of the argument, b the
    block's first index and s = 64·h + p. -/
theorem iblk0_apply (c : Dev nD) (t : Fin cfg0.N) (u : Fin 1) (p : Fin 64) (mm : Fin 128) (k : Fin 256) (b : Fin 16) (s : Fin 128)
    (hb : b.val = win0_0.index t (0 : Fin 4)) (hs : s.val = 64 * win0_0.index t (1 : Fin 4) + p.val) :
    (iblk m c 0 t : Vec Ideal S1x64x128x256 .f32) (ix4 u p mm k)
      = (m ((c : Thread nD τ).loc main_arg0) : S16x128x128x256.Idx → EReal) (ix4 b s mm k) := by
  obtain ⟨-, -, -, -, e2, e3, -⟩ := idx_facts t
  unfold iblk
  rw [View.read_apply]
  show V m c main_arg0 _ = _
  rw [V_main_arg0]
  refine congrArg _ ?_
  funext a
  apply Fin.ext
  match a with
  | ⟨0, _⟩ => show win0_0.index t (0 : Fin 4) * 1 + 1 * u.val = b.val; omega
  | ⟨1, _⟩ => show win0_0.index t (1 : Fin 4) * 64 + 1 * p.val = s.val; omega
  | ⟨2, _⟩ => show win0_0.index t (2 : Fin 4) * 128 + 1 * mm.val = mm.val; omega
  | ⟨3, _⟩ => show win0_0.index t (3 : Fin 4) * 256 + 1 * k.val = k.val; omega

/-- The neighbours' features: the same entries of the second argument (its block moves with the first's). -/
theorem iblk1_apply (c : Dev nD) (t : Fin cfg0.N) (u : Fin 1) (p : Fin 64) (mm : Fin 128) (k : Fin 256) (b : Fin 16) (s : Fin 128)
    (hb : b.val = win0_0.index t (0 : Fin 4)) (hs : s.val = 64 * win0_0.index t (1 : Fin 4) + p.val) :
    (iblk m c 1 t : Vec Ideal S1x64x128x256 .f32) (ix4 u p mm k)
      = (m ((c : Thread nD τ).loc main_arg1) : S16x128x128x256.Idx → EReal) (ix4 b s mm k) := by
  obtain ⟨-, -, -, -, -, -, e0, e1, e2, e3, -⟩ := idx_facts t
  unfold iblk
  rw [View.read_apply]
  show V m c main_arg1 _ = _
  rw [V_main_arg1]
  refine congrArg _ ?_
  funext a
  apply Fin.ext
  match a with
  | ⟨0, _⟩ => show win0_1.index t (0 : Fin 4) * 1 + 1 * u.val = b.val; omega
  | ⟨1, _⟩ => show win0_1.index t (1 : Fin 4) * 64 + 1 * p.val = s.val; omega
  | ⟨2, _⟩ => show win0_1.index t (2 : Fin 4) * 128 + 1 * mm.val = mm.val; omega
  | ⟨3, _⟩ => show win0_1.index t (3 : Fin 4) * 256 + 1 * k.val = k.val; omega

end Cert.KernelIdeal.KValue

end
-- ==== Proof.KStaged.lean ====
/-
  The three small windows of the kernel: the two halves of the weight matrix and the bias row.

  Before the region is entered the host cuts the weight matrix W [512, 256] into its upper half (rows 0 … 255) and its lower
  half (rows 256 … 511), changes each half's format (the identity on the extended reals), and reshapes the bias [256] to a
  one-row matrix [1, 256].  Each of these three arrays is one block, (0, 0) at every grid point, so the block the body sees is
  the array itself: entry (k, o) of the first is W(k, o), of the second W(256 + k, o), and entry (0, o) of the third is bias(o).
-/
import proofs.«104938_j38774964748866_2_alg».proof.Proof.Gen.KernelIdeal.Frame.Runs
import proofs.«104938_j38774964748866_2_alg».proof.Proof.KPoints
import proofs.«104938_j38774964748866_2_alg».proof.Proof.Spec
import Idealize.ShloMosaic.Lib.ValueIdx
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## What the host leaves in the three arrays -/

/-- The upper half of the weight matrix, as the region finds it. -/
theorem V_upper (c : Dev nD) : (V m c main_v1 : S256x256.Idx → EReal)
    = (truncf .bf16 (extractStridedSlice S256x256 ![0, 0] (m ((c : Thread nD τ).loc main_arg2) : S512x256.Idx → EReal) slices_S512x256_S256x256_0_0) bitsLt_bf16_f32 : FVec Ideal S256x256 .bf16) := by
  dsimp only [Gen.V, Gen.hostOps0]
  after_results

/-- The lower half of the weight matrix, as the region finds it. -/
theorem V_lower (c : Dev nD) : (V m c main_v3 : S256x256.Idx → EReal)
    = (truncf .bf16 (extractStridedSlice S256x256 ![256, 0] (m ((c : Thread nD τ).loc main_arg2) : S512x256.Idx → EReal) slices_S512x256_S256x256_256_0) bitsLt_bf16_f32 : FVec Ideal S256x256 .bf16) := by
  dsimp only [Gen.V, Gen.hostOps0]
  after_results

/-- The bias as a one-row matrix, as the region finds it. -/
theorem V_bias (c : Dev nD) : (V m c main_v4 : S1x256.Idx → EReal)
    = shapeCast S1x256 (m ((c : Thread nD τ).loc main_arg3) : S256.Idx → EReal) shapeCasts_S256_S1x256 := by
  dsimp only [Gen.V, Gen.hostOps0]
  after_results
  rfl

/-! ## Read at an entry -/

/-- Entry (k, o) of the upper half is W(k, o). -/
theorem V_upper_apply (c : Dev nD) (k o : Fin 256) :
    (V m c main_v1 : S256x256.Idx → EReal) (ix2 k o)
      = (m ((c : Thread nD τ).loc main_arg2) : S512x256.Idx → EReal) (ix2 (Cert.Spec.upper k) o) := by
  rw [V_upper]
  refine (truncf_apply (φ := .f32) (ψ := .bf16) (extractStridedSlice S256x256 ![0, 0] (m ((c : Thread nD τ).loc main_arg2) : S512x256.Idx → EReal) slices_S512x256_S256x256_0_0) bitsLt_bf16_f32 (ix2 k o)).trans ?_
  refine extractStridedSlice_apply _ _ _ _ _ fun a => ?_
  match a with
  | ⟨0, _⟩ => show k.val = 0 + k.val; omega
  | ⟨1, _⟩ => show o.val = 0 + o.val; omega

/-- Entry (k, o) of the lower half is W(256 + k, o). -/
theorem V_lower_apply (c : Dev nD) (k o : Fin 256) :
    (V m c main_v3 : S256x256.Idx → EReal) (ix2 k o)
      = (m ((c : Thread nD τ).loc main_arg2) : S512x256.Idx → EReal) (ix2 (Cert.Spec.lower k) o) := by
  rw [V_lower]
  refine (truncf_apply (φ := .f32) (ψ := .bf16) (extractStridedSlice S256x256 ![256, 0] (m ((c : Thread nD τ).loc main_arg2) : S512x256.Idx → EReal) slices_S512x256_S256x256_256_0) bitsLt_bf16_f32 (ix2 k o)).trans ?_
  refine extractStridedSlice_apply _ _ _ _ _ fun a => ?_
  match a with
  | ⟨0, _⟩ => show 256 + k.val = 256 + k.val; rfl
  | ⟨1, _⟩ => show o.val = 0 + o.val; omega

/-- Entry (0, o) of the bias row is bias(o). -/
theorem V_bias_apply (c : Dev nD) (u : Fin 1) (o : Fin 256) :
    (V m c main_v4 : S1x256.Idx → EReal) (ix2 u o)
      = (m ((c : Thread nD τ).loc main_arg3) : S256.Idx → EReal) (ix1 o) := by
  rw [V_bias]
  refine (shapeCast_addUnit_apply (n := 1) ![256] _ shapeCasts_S256_S1x256 (ix2 u o)).trans (congrArg _ ?_)
  funext a
  match a with
  | ⟨0, _⟩ => rfl

/-! ## The blocks the body sees -/

/-- The block of the upper half at any point is the upper half. -/
theorem iblk2_apply (c : Dev nD) (t : Fin cfg0.N) (k o : Fin 256) :
    (iblk m c 2 t : Vec Ideal S256x256 .bf16) (ix2 k o)
      = (m ((c : Thread nD τ).loc main_arg2) : S512x256.Idx → EReal) (ix2 (Cert.Spec.upper k) o) := by
  obtain ⟨-, -, -, -, -, -, -, -, -, -, e0, e1, -⟩ := idx_facts t
  refine Eq.trans ?_ (V_upper_apply m c k o)
  unfold iblk
  rw [View.read_apply]
  show V m c main_v1 _ = V m c main_v1 _
  refine congrArg _ ?_
  funext a
  apply Fin.ext
  match a with
  | ⟨0, _⟩ => show win0_2.index t (0 : Fin 2) * 256 + 1 * k.val = k.val; omega
  | ⟨1, _⟩ => show win0_2.index t (1 : Fin 2) * 256 + 1 * o.val = o.val; omega

/-- The block of the lower half at any point is the lower half. -/
theorem iblk3_apply (c : Dev nD) (t : Fin cfg0.N) (k o : Fin 256) :
    (iblk m c 3 t : Vec Ideal S256x256 .bf16) (ix2 k o)
      = (m ((c : Thread nD τ).loc main_arg2) : S512x256.Idx → EReal) (ix2 (Cert.Spec.lower k) o) := by
  obtain ⟨-, -, -, -, -, -, -, -, -, -, -, -, e0, e1, -⟩ := idx_facts t
  refine Eq.trans ?_ (V_lower_apply m c k o)
  unfold iblk
  rw [View.read_apply]
  show V m c main_v3 _ = V m c main_v3 _
  refine congrArg _ ?_
  funext a
  apply Fin.ext
  match a with
  | ⟨0, _⟩ => show win0_3.index t (0 : Fin 2) * 256 + 1 * k.val = k.val; omega
  | ⟨1, _⟩ => show win0_3.index t (1 : Fin 2) * 256 + 1 * o.val = o.val; omega

/-- The block of the bias row at any point is the bias row. -/
theorem iblk4_apply (c : Dev nD) (t : Fin cfg0.N) (u : Fin 1) (o : Fin 256) :
    (iblk m c 4 t : Vec Ideal S1x256 .f32) (ix2 u o)
      = (m ((c : Thread nD τ).loc main_arg3) : S256.Idx → EReal) (ix1 o) := by
  obtain ⟨-, -, -, -, -, -, -, -, -, -, -, -, -, -, e0, e1⟩ := idx_facts t
  refine Eq.trans ?_ (V_bias_apply m c u o)
  unfold iblk
  rw [View.read_apply]
  show V m c main_v4 _ = V m c main_v4 _
  refine congrArg _ ?_
  funext a
  apply Fin.ext
  match a with
  | ⟨0, _⟩ => show win0_4.index t (0 : Fin 2) * 1 + 1 * u.val = u.val; omega
  | ⟨1, _⟩ => show win0_4.index t (1 : Fin 2) * 256 + 1 * o.val = o.val; omega

end Cert.KernelIdeal.KValue

end
-- ==== Proof.KSpecBlock.lean ====
/-
  One entry of a 64-row block of the result is one entry of the whole result.

  The block specification and the array specification are both the row expression `rowOut` of a row's data; they agree at
  entry (p, o) of a block and entry (r, o) of the array as soon as the block's data at row p is the array's data at batch
  r / 128, node r % 128, and the block's weights and bias are the array's.
-/
import proofs.«104938_j38774964748866_2_alg».proof.Proof.Spec

noncomputable section

namespace Cert.KernelIdeal.KValue

open Idealize.ShloMosaic Idealize.ShloMosaic.ValueIdx Cert.Spec

/-- Entry (p, o) of the block's result is entry (r, o) of the array's, when row p of the two feature blocks is row
    (r / 128, r % 128) of the two feature arrays and column o of the block's weights and bias is column o of the array's. -/
theorem Gblk_apply_eq_G (x0 x1 : (⟨4, ![1, 64, 128, 256]⟩ : Shape).Idx → EReal) (w1 w2 : (⟨2, ![256, 256]⟩ : Shape).Idx → EReal)
    (bb : (⟨2, ![1, 256]⟩ : Shape).Idx → EReal)
    (a0 a1 : (⟨4, ![16, 128, 128, 256]⟩ : Shape).Idx → EReal) (W : (⟨2, ![512, 256]⟩ : Shape).Idx → EReal)
    (bias : (⟨1, ![256]⟩ : Shape).Idx → EReal)
    (p : Fin 64) (o : Fin 256) (r : Fin 2048)
    (h0 : ∀ (mm : Fin 128) (k : Fin 256), x0 (ix4 (0 : Fin 1) p mm k) = a0 (ix4 (rowB r) (rowS r) mm k))
    (h1 : ∀ (mm : Fin 128) (k : Fin 256), x1 (ix4 (0 : Fin 1) p mm k) = a1 (ix4 (rowB r) (rowS r) mm k))
    (h2 : ∀ k : Fin 256, w1 (ix2 k o) = W (ix2 (upper k) o))
    (h3 : ∀ k : Fin 256, w2 (ix2 k o) = W (ix2 (lower k) o))
    (h4 : bb (ix2 (0 : Fin 1) o) = bias (ix1 o)) :
    Gblk x0 x1 w1 w2 bb (ix2 p o) = G a0 a1 W bias (ix2 r o) := by
  have e0 : (fun (mm : Fin 128) (k : Fin 256) => x0 (ix4 (0 : Fin 1) p mm k)) = fun mm k => a0 (ix4 (rowB r) (rowS r) mm k) :=
    funext fun mm => funext fun k => h0 mm k
  have e1 : (fun (mm : Fin 128) (k : Fin 256) => x1 (ix4 (0 : Fin 1) p mm k)) = fun mm k => a1 (ix4 (rowB r) (rowS r) mm k) :=
    funext fun mm => funext fun k => h1 mm k
  have e2 : (fun k : Fin 256 => w1 (ix2 k o)) = fun k => W (ix2 (upper k) o) := funext h2
  have e3 : (fun k : Fin 256 => w2 (ix2 k o)) = fun k => W (ix2 (lower k) o) := funext h3
  show rowOut (fun mm k => x0 (ix4 (0 : Fin 1) p mm k)) (fun mm k => x1 (ix4 (0 : Fin 1) p mm k))
      (fun k => w1 (ix2 k o)) (fun k => w2 (ix2 k o)) (bb (ix2 (0 : Fin 1) o))
    = rowOut (fun mm k => a0 (ix4 (rowB r) (rowS r) mm k)) (fun mm k => a1 (ix4 (rowB r) (rowS r) mm k))
      (fun k => W (ix2 (upper k) o)) (fun k => W (ix2 (lower k) o)) (bias (ix1 o))
  rw [e0, e1, e2, e3, h4]

end Cert.KernelIdeal.KValue

end
-- ==== Proof.KFlushed.lean ====
/-
  What a grid point writes back is its block of the whole result.

  At the point with feature-block index (b, h) the body leaves, in the result's staging buffer, the block specification of the
  point's five input blocks (the hypothesis on the body's arithmetic).  Entry (p, o) of that block is the row expression of
  row p of the two feature blocks — rows (b, 64·h + p) of the feature arrays —, of column o of the two halves of the weight
  matrix and of the bias at o; the point's block of the result is block 2·b + h, whose row p is row
  r = 64·(2·b + h) + p = 128·b + (64·h + p) of the result, and r / 128 = b, r % 128 = 64·h + p.  So what the point writes
  back is the whole result read through the point's block.
-/
import proofs.«104938_j38774964748866_2_alg».proof.Proof.Gen.KernelIdeal.Value
import proofs.«104938_j38774964748866_2_alg».proof.Proof.Spec
import proofs.«104938_j38774964748866_2_alg».proof.Proof.KPoints
import proofs.«104938_j38774964748866_2_alg».proof.Proof.KBlocks
import proofs.«104938_j38774964748866_2_alg».proof.Proof.KStaged
import proofs.«104938_j38774964748866_2_alg».proof.Proof.KSpecBlock

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

/-- The body's arithmetic: on any staging memrefs and any five input blocks, what the body leaves in the result's staging
    buffer is the block specification of the five blocks. -/
abbrev BodyIsBlockSpec : Prop :=
  ∀ (c : Dev nD) (i : grid0.Coords) (arg2 : Memref sig .tc .vmem S1x64x128x256 .f32) (harg2 : arg2.IsWhole) (arg3 : Memref sig .tc .vmem S1x64x128x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S64x256 .f32) (harg7 : arg7.IsWhole) (x0 x1 : Vec Ideal S1x64x128x256 .f32) (x2 x3 : Vec Ideal S256x256 .bf16) (x4 : Vec Ideal S1x256 .f32),
      Gen.out0_A_5 (F := Ideal) c i arg2 harg2 arg3 harg3 arg4 harg4 arg5 harg5 arg6 harg6 arg7 harg7 x0 x1 x2 x3 x4 = Cert.Spec.Gblk x0 x1 x2 x3 x4

variable (m : (ℓ : Loc nD τ sig) → Buf (Elt Ideal) ℓ)

/-- Row p of the block the point t writes is row 64·(2·b + h) + p of the result, in batch b at node 64·h + p. -/
theorem row_of_block (t : Fin cfg0.N) (p : Fin 64) :
    ∃ r : Fin 2048, r.val = win0_5.index t (0 : Fin 2) * 64 + p.val
      ∧ (Cert.Spec.rowB r).val = win0_0.index t (0 : Fin 4)
      ∧ (Cert.Spec.rowS r).val = 64 * win0_0.index t (1 : Fin 4) + p.val := by
  obtain ⟨e5, -, hb, hh, -⟩ := idx_facts t
  have hp : p.val < 64 := p.isLt
  refine ⟨⟨win0_5.index t (0 : Fin 2) * 64 + p.val, by omega⟩, rfl, ?_, ?_⟩
  · show (win0_5.index t (0 : Fin 2) * 64 + p.val) / 128 = _
    omega
  · show (win0_5.index t (0 : Fin 2) * 64 + p.val) % 128 = _
    omega

/-- WHAT POINT t WRITES BACK is block t of the whole result, the specification of the argument arrays as launched. -/
theorem flushed_eq (hout : BodyIsBlockSpec) (c : Dev nD) (t : Fin cfg0.N) :
    (dats m 0 c).flushed 5 t = ((cfg0.win 5).blk t).view.read (Elt Ideal)
      (Cert.Spec.G (m ((c.tc : Thread nD τ).loc main_arg0)) (m ((c.tc : Thread nD τ).loc main_arg1)) (m ((c.tc : Thread nD τ).loc main_arg2)) (m ((c.tc : Thread nD τ).loc main_arg3))) := by
  obtain ⟨-, e5, -⟩ := idx_facts t
  refine (Value.flushed5_A m c t).trans ?_
  refine (congrArg ((cfg0.win 5).cut (grid0.coords t))
    (hout c (grid0.coords t) (ms0_0 t) (hs0_0 t) (ms0_1 t) (hs0_1 t) (ms0_2 t) (hs0_2 t) (ms0_3 t) (hs0_3 t) (ms0_4 t) (hs0_4 t)
      (ms0_5 t) (hs0_5 t) (iblk m c 0 t) (iblk m c 1 t) (iblk m c 2 t) (iblk m c 3 t) (iblk m c 4 t))).trans ?_
  funext y
  obtain ⟨p, o, rfl⟩ : ∃ (p : Fin 64) (o : Fin 256), y = ix2 p o := ⟨y 0, y 1, eq_ix2 y⟩
  obtain ⟨r, hr, hrb, hrs⟩ := row_of_block t p
  have hemb : ((cfg0.win 5).blk t).view.emb (ix2 p o) = (ix2 r o : S2048x256.Idx) := by
    funext a
    apply Fin.ext
    match a with
    | ⟨0, _⟩ => show win0_5.index t (0 : Fin 2) * 64 + 1 * p.val = r.val; omega
    | ⟨1, _⟩ => show win0_5.index t (1 : Fin 2) * 256 + 1 * o.val = o.val; omega
  rw [View.read_apply]
  show Cert.Spec.Gblk (iblk m c 0 t) (iblk m c 1 t) (iblk m c 2 t) (iblk m c 3 t) (iblk m c 4 t) (ix2 p o)
    = Cert.Spec.G _ _ _ _ (((cfg0.win 5).blk t).view.emb (ix2 p o))
  rw [hemb]
  exact Gblk_apply_eq_G (iblk m c 0 t) (iblk m c 1 t) (iblk m c 2 t) (iblk m c 3 t) (iblk m c 4 t) _ _ _ _ p o r
    (fun mm k => iblk0_apply m c t 0 p mm k (Cert.Spec.rowB r) (Cert.Spec.rowS r) hrb hrs)
    (fun mm k => iblk1_apply m c t 0 p mm k (Cert.Spec.rowB r) (Cert.Spec.rowS r) hrb hrs)
    (fun k => iblk2_apply m c t k o)
    (fun k => iblk3_apply m c t k o)
    (iblk4_apply m c t 0 o)

end Cert.KernelIdeal.KValue

end
-- ==== Proof.KArray.lean ====
/-
  From the blocks to the whole result.

  The result [2048, 256] is cut into 32 row blocks [64, 256]; every grid point writes one of them back and every one of them is
  some point's (row r lies in block r / 64).  Each point writes its block of the one function `Cert.Spec.G` of the argument
  arrays, so after the run the result array holds that function, and the four argument arrays are as launched.
-/
import proofs.«104938_j38774964748866_2_alg».proof.Proof.Gen.KernelIdeal.Value
import proofs.«104938_j38774964748866_2_alg».proof.Proof.Spec
import proofs.«104938_j38774964748866_2_alg».proof.Proof.KPoints
import proofs.«104938_j38774964748866_2_alg».proof.Proof.KFlushed

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

/-- An entry of the result is in point t's block iff each coordinate is in the block's range on its axis. -/
theorem mem_blk (t : Fin cfg0.N) (i : S2048x256.Idx) :
    i ∈ ((cfg0.win 5).blk t).view.set ↔ ∀ a : Fin 2, win0_5.index t a * S64x256.size a ≤ (i a).val ∧ (i a).val < win0_5.index t a * S64x256.size a + S64x256.size a := by
  show i ∈ ((View.whole main_v5).slice (win0_5.rect t)).set ↔ _
  rw [View.set_slice_whole, Rect.mem_set_unit]
  exact Iff.rfl

/-- Every entry of the result is in the block some point writes back: row r in block r / 64. -/
theorem cover (i : S2048x256.Idx) : ∃ t : Fin cfg0.N, (cfg0.win 5).flush t = true ∧ i ∈ ((cfg0.win 5).blk t).view.set := by
  have hi0 : (i 0).val < 2048 := (i 0).isLt
  have hi1 : (i 1).val < 256 := (i 1).isLt
  obtain ⟨t, ht⟩ := idx_onto ⟨(i 0).val / 64, by omega⟩
  obtain ⟨-, e1, -⟩ := idx_facts t
  have q0 : win0_5.index t (0 : Fin 2) = (i 0).val / 64 := ht
  refine ⟨t, flush0_5 t, ?_⟩
  rw [mem_blk]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 256 ≤ (i 1).val ∧ (i 1).val < win0_5.index t (1 : Fin 2) * 256 + 256; omega

variable (m : (ℓ : Loc nD τ sig) → Buf (Elt Ideal) ℓ)

/-- THE RESULT ARRAY after the run is the specification of the argument arrays as launched. -/
theorem final (hout : BodyIsBlockSpec) (c : Dev nD) :
    (dats m 0 c).arrAt 5 cfg0.N = (Cert.Spec.G (m ((c.tc : Thread nD τ).loc main_arg0)) (m ((c.tc : Thread nD τ).loc main_arg1)) (m ((c.tc : Thread nD τ).loc main_arg2)) (m ((c.tc : Thread nD τ).loc main_arg3))) :=
  (dats m 0 c).arrAt_eq_of_cover 5 (Cert.Spec.G (m ((c.tc : Thread nD τ).loc main_arg0)) (m ((c.tc : Thread nD τ).loc main_arg1)) (m ((c.tc : Thread nD τ).loc main_arg2)) (m ((c.tc : Thread nD τ).loc main_arg3)))
    (fun t _ => flushed_eq m hout c t) cover

/-- THE KERNEL'S RUN, READ: under the hypothesis on the body's arithmetic, every weakly fair execution of the program ends
    with the result array at the specification of the arguments, and the four argument arrays unchanged. -/
theorem run_of (hout : ∀ (c : Dev nD) (i : grid0.Coords) (arg2 : Memref sig .tc .vmem S1x64x128x256 .f32) (harg2 : arg2.IsWhole) (arg3 : Memref sig .tc .vmem S1x64x128x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S64x256 .f32) (harg7 : arg7.IsWhole) (x0 x1 : Vec Ideal S1x64x128x256 .f32) (x2 x3 : Vec Ideal S256x256 .bf16) (x4 : Vec Ideal S1x256 .f32),
      Gen.out0_A_5 (F := Ideal) c i arg2 harg2 arg3 harg3 arg4 harg4 arg5 harg5 arg6 harg6 arg7 harg7 x0 x1 x2 x3 x4 = Cert.Spec.Gblk x0 x1 x2 x3 x4) (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m hout c), (h c).2⟩) (Value.run_blocks m ρ)

end Cert.KernelIdeal.KValue

end
-- ==== Proof.RefRun.lean ====
/-
  The reference program as a straight line of host operations.

  The program's entry function calls the leaky rectifier, which calls the selection function; with both calls unfolded
  at their call sites the program is one list of thirty-three operations, each writing one buffer.  Every weakly fair
  execution then terminates with each buffer holding the fold of the operations' results over the launch contents.
-/
import proofs.«104938_j38774964748866_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations in order: the entry function's twenty-six, then the rectifier's six (the zero and its spread, the
    comparison, the slope converted to its own type and spread, the product) and the selection. -/
abbrev ops : List (HloOp τ sig (Elt F)) :=
  [ nullary main_cst (constant S_ .f32 0x00000000#32),
    unary main_cst main_v0 (broadcastInDim S16x128x128x256 ![] bcast_S_S16x128x128x256 : (⟨S_, .f32⟩ : BufTy).Contents (Elt F) → (⟨S16x128x128x256, .f32⟩ : BufTy).Contents (Elt F)),
    binary main_arg1 main_v0 main_v1 (cmpf .une : (⟨S16x128x128x256, .f32⟩ : BufTy).Contents (Elt F) → (⟨S16x128x128x256, .f32⟩ : BufTy).Contents (Elt F) → (⟨S16x128x128x256, .i1⟩ : BufTy).Contents (Elt F)),
    nullary main_c (constantI S_ 1 0#1),
    binary main_v1 main_c main_v2 ((fun x v => Host.reduce IntOp.ori x v reducesTo_S16x128x128x256_S16x128x128_d3 h_S_) : (⟨S16x128x128x256, .i1⟩ : BufTy).Contents (Elt F) → (⟨S_, .i1⟩ : BufTy).Contents (Elt F) → (⟨S16x128x128, .i1⟩ : BufTy).Contents (Elt F)),
    unary main_v2 main_v3 ((extui 32 · natLt_1_32) : (⟨S16x128x128, .i1⟩ : BufTy).Contents (Elt F) → (⟨S16x128x128, .i32⟩ : BufTy).Contents (Elt F)),
    nullary main_c_0 (constantI S_ 32 0#32),
    binary main_v3 main_c_0 main_v4 ((fun x v => Host.reduce IntOp.addi x v reducesTo_S16x128x128_S16x128_d2 h_S_) : (⟨S16x128x128, .i32⟩ : BufTy).Contents (Elt F) → (⟨S_, .i32⟩ : BufTy).Contents (Elt F) → (⟨S16x128, .i32⟩ : BufTy).Contents (Elt F)),
    unary main_v4 main_v5 (sitofp .f32 : (⟨S16x128, .i32⟩ : BufTy).Contents (Elt F) → (⟨S16x128, .f32⟩ : BufTy).Contents (Elt F)),
    nullary main_cst_1 (constant S_ .f32 0x00000000#32),
    binary main_arg1 main_cst_1 main_v6 ((fun x v => Host.reduceAdd x v reducesTo_S16x128x128x256_S16x128x256_d2 h_S_) : (⟨S16x128x128x256, .f32⟩ : BufTy).Contents (Elt F) → (⟨S_, .f32⟩ : BufTy).Contents (Elt F) → (⟨S16x128x256, .f32⟩ : BufTy).Contents (Elt F)),
    nullary main_cst_2 (constant S_ .f32 0x3F800000#32),
    unary main_cst_2 main_v7 (broadcastInDim S16x128 ![] bcast_S_S16x128 : (⟨S_, .f32⟩ : BufTy).Contents (Elt F) → (⟨S16x128, .f32⟩ : BufTy).Contents (Elt F)),
    binary main_v5 main_v7 main_v8 (maximumf : (⟨S16x128, .f32⟩ : BufTy).Contents (Elt F) → (⟨S16x128, .f32⟩ : BufTy).Contents (Elt F) → (⟨S16x128, .f32⟩ : BufTy).Contents (Elt F)),
    unary main_v8 main_v9 (broadcastInDim S16x128x1 ![0, 1] bcast_S16x128_S16x128x1_0_1 : (⟨S16x128, .f32⟩ : BufTy).Contents (Elt F) → (⟨S16x128x1, .f32⟩ : BufTy).Contents (Elt F)),
    unary main_v9 main_v10 (broadcastInDim S16x128x256 ![0, 1, 2] bcast_S16x128x1_S16x128x256_0_1_2 : (⟨S16x128x1, .f32⟩ : BufTy).Contents (Elt F) → (⟨S16x128x256, .f32⟩ : BufTy).Contents (Elt F)),
    binary main_v6 main_v10 main_v11 (Host.divf : (⟨S16x128x256, .f32⟩ : BufTy).Contents (Elt F) → (⟨S16x128x256, .f32⟩ : BufTy).Contents (Elt F) → (⟨S16x128x256, .f32⟩ : BufTy).Contents (Elt F)),
    nullary main_cst_3 (constant S_ .f32 0x00000000#32),
    binary main_arg0 main_cst_3 main_v12 ((fun x v => Host.reduceAdd x v reducesTo_S16x128x128x256_S16x128x256_d2 h_S_) : (⟨S16x128x128x256, .f32⟩ : BufTy).Contents (Elt F) → (⟨S_, .f32⟩ : BufTy).Contents (Elt F) → (⟨S16x128x256, .f32⟩ : BufTy).Contents (Elt F)),
    binary main_v12 main_v11 main_v13 ((fun a b => concatenate S16x128x512 2 [⟨S16x128x256, a⟩, ⟨S16x128x256, b⟩] concatenates_S16x128x256_S16x128x256_S16x128x512_d2) : (⟨S16x128x256, .f32⟩ : BufTy).Contents (Elt F) → (⟨S16x128x256, .f32⟩ : BufTy).Contents (Elt F) → (⟨S16x128x512, .f32⟩ : BufTy).Contents (Elt F)),
    reshape main_v13 main_v14 rfl shapeCasts_S16x128x512_S2048x512,
    binary main_v14 main_arg2 main_v15 ((fun l r => Host.dotGeneral dot_S2048x512_S512x256_S2048x256_1_0_0_1_n_n none l r) : (⟨S2048x512, .f32⟩ : BufTy).Contents (Elt F) → (⟨S512x256, .f32⟩ : BufTy).Contents (Elt F) → (⟨S2048x256, .f32⟩ : BufTy).Contents (Elt F)),
    unary main_arg3 main_v16 (broadcastInDim S1x256 ![1] bcast_S256_S1x256_1 : (⟨S256, .f32⟩ : BufTy).Contents (Elt F) → (⟨S1x256, .f32⟩ : BufTy).Contents (Elt F)),
    unary main_v16 main_v17 (broadcastInDim S2048x256 ![0, 1] bcast_S1x256_S2048x256_0_1 : (⟨S1x256, .f32⟩ : BufTy).Contents (Elt F) → (⟨S2048x256, .f32⟩ : BufTy).Contents (Elt F)),
    binary main_v15 main_v17 main_v18 (addf : (⟨S2048x256, .f32⟩ : BufTy).Contents (Elt F) → (⟨S2048x256, .f32⟩ : BufTy).Contents (Elt F) → (⟨S2048x256, .f32⟩ : BufTy).Contents (Elt F)),
    nullary main_cst_4 (constant S_ .f32 0x3C23D70A#32),
    TRef.nullary main_call0.cst (constant S_ .f32 0x00000000#32),
    TRef.unary main_call0.cst main_call0.v0 (broadcastInDim S2048x256 ![] bcast_S_S2048x256),
    TRef.binary (.of main_v18) main_call0.v0 main_call0.v1 (cmpf .oge),
    TRef.unary (.of main_cst_4) main_call0.v2 id,
    TRef.unary main_call0.v2 main_call0.v3 (broadcastInDim S2048x256 ![] bcast_S_S2048x256),
    TRef.binary main_call0.v3 (.of main_v18) main_call0.v4 mulf,
    TRef.ternary main_call0.v1 (.of main_v18) main_call0.v4 main_call0.call0.v0 select ]

-- thirty-three binds re-associated
set_option maxRecDepth 2048 in
/-- The entry function is that straight line: the two functions' bodies unfolded at their calls and the sequencing
    re-associated, both sides are one chain of operation steps. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., binary_bufs_sub .., unary_bufs_sub ..,
    nullary_bufs_sub .., binary_bufs_sub .., unary_bufs_sub .., nullary_bufs_sub .., binary_bufs_sub .., nullary_bufs_sub ..,
    unary_bufs_sub .., binary_bufs_sub .., unary_bufs_sub .., unary_bufs_sub .., binary_bufs_sub .., nullary_bufs_sub ..,
    binary_bufs_sub .., binary_bufs_sub .., reshape_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub ..⟩

/-- From any memory with zero counters every weakly fair execution of the program terminates, and every buffer ends at
    the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The value the reference program leaves in its result buffer, as a composition of named stages.

  occupied: one bit per neighbour slot, the disjunction over the lanes of "the lane is not zero";
  count:    the number of occupied slots, summed as 32-bit integers and converted to a float;
  divisor:  max(count, 1), spread along the lane axis;
  laneSums: the sum over the slots of one feature array;
  mean:     the neighbours' lane sums divided by the divisor;
  hidden:   own lane sums and neighbour means side by side, the batch and node axes merged into rows;
  affine:   hidden times the weight matrix plus the bias row;
  result:   the affine value where it is at least zero, the slope times it elsewhere.
-/
import proofs.«104938_j38774964748866_2_alg».proof.Proof.RefRun
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- One bit per neighbour slot: some lane of the slot is not zero. -/
def occupied (nb : FVec F S16x128x128x256 .f32) : IVec S16x128x128 1 :=
  Host.reduce IntOp.ori
    (cmpf .une nb (broadcastInDim S16x128x128x256 ![] bcast_S_S16x128x128x256 (constant (F := F) S_ .f32 0x00000000#32)))
    (constantI S_ 1 0#1) reducesTo_S16x128x128x256_S16x128x128_d3 h_S_

/-- The number of occupied slots of each node, as a float. -/
def count (nb : FVec F S16x128x128x256 .f32) : FVec F S16x128 .f32 :=
  sitofp .f32 (Host.reduce IntOp.addi (extui 32 (occupied nb) natLt_1_32) (constantI S_ 32 0#32)
    reducesTo_S16x128x128_S16x128_d2 h_S_)

/-- max(count, 1) spread along the lane axis. -/
def divisor (nb : FVec F S16x128x128x256 .f32) : FVec F S16x128x256 .f32 :=
  broadcastInDim S16x128x256 ![0, 1, 2] bcast_S16x128x1_S16x128x256_0_1_2
    (broadcastInDim S16x128x1 ![0, 1] bcast_S16x128_S16x128x1_0_1
      (maximumf (count nb) (broadcastInDim S16x128 ![] bcast_S_S16x128 (constant (F := F) S_ .f32 0x3F800000#32))))

/-- The sum over the neighbour slots of a feature array. -/
def laneSums (x : FVec F S16x128x128x256 .f32) : FVec F S16x128x256 .f32 :=
  Host.reduceAdd x (constant (F := F) S_ .f32 0x00000000#32) reducesTo_S16x128x128x256_S16x128x256_d2 h_S_

/-- The neighbours' lane sums over the divisor. -/
def mean (nb : FVec F S16x128x128x256 .f32) : FVec F S16x128x256 .f32 :=
  Host.divf (laneSums nb) (divisor nb)

/-- Own lane sums and neighbour means joined along the lanes, the batch and node axes merged. -/
def hidden (x nb : FVec F S16x128x128x256 .f32) : FVec F S2048x512 .f32 :=
  shapeCast S2048x512
    (concatenate S16x128x512 2 [⟨S16x128x256, laneSums x⟩, ⟨S16x128x256, mean nb⟩] concatenates_S16x128x256_S16x128x256_S16x128x512_d2)
    shapeCasts_S16x128x512_S2048x512

/-- hidden · W + bias. -/
def affine (x nb : FVec F S16x128x128x256 .f32) (W : FVec F S512x256 .f32) (bias : FVec F S256 .f32) :
    FVec F S2048x256 .f32 :=
  addf (Host.dotGeneral dot_S2048x512_S512x256_S2048x256_1_0_0_1_n_n none (hidden x nb) W)
    (broadcastInDim S2048x256 ![0, 1] bcast_S1x256_S2048x256_0_1 (broadcastInDim S1x256 ![1] bcast_S256_S1x256_1 bias))

/-- The leaky rectifier of a matrix with a given slope: the entry where it is at least zero, the slope times the entry
    elsewhere. -/
def rectify (p : FVec F S2048x256 .f32) (a : FVec F S_ .f32) : FVec F S2048x256 .f32 :=
  select (cmpf .oge p (broadcastInDim S2048x256 ![] bcast_S_S2048x256 (constant (F := F) S_ .f32 0x00000000#32))) p
    (mulf (broadcastInDim S2048x256 ![] bcast_S_S2048x256 (id a)) p)

/-- The whole result. -/
def result (x nb : FVec F S16x128x128x256 .f32) (W : FVec F S512x256 .f32) (bias : FVec F S256 .f32) :
    FVec F S2048x256 .f32 :=
  rectify (affine x nb W bias) (constant (F := F) S_ .f32 0x3C23D70A#32)

/-- The first nine operations: the occupancy bits and the count. -/
abbrev opsCount : List (HloOp τ sig (Elt F)) :=
  [ nullary main_cst (constant S_ .f32 0x00000000#32),
    unary main_cst main_v0 (broadcastInDim S16x128x128x256 ![] bcast_S_S16x128x128x256 : (⟨S_, .f32⟩ : BufTy).Contents (Elt F) → (⟨S16x128x128x256, .f32⟩ : BufTy).Contents (Elt F)),
    binary main_arg1 main_v0 main_v1 (cmpf .une : (⟨S16x128x128x256, .f32⟩ : BufTy).Contents (Elt F) → (⟨S16x128x128x256, .f32⟩ : BufTy).Contents (Elt F) → (⟨S16x128x128x256, .i1⟩ : BufTy).Contents (Elt F)),
    nullary main_c (constantI S_ 1 0#1),
    binary main_v1 main_c main_v2 ((fun x v => Host.reduce IntOp.ori x v reducesTo_S16x128x128x256_S16x128x128_d3 h_S_) : (⟨S16x128x128x256, .i1⟩ : BufTy).Contents (Elt F) → (⟨S_, .i1⟩ : BufTy).Contents (Elt F) → (⟨S16x128x128, .i1⟩ : BufTy).Contents (Elt F)),
    unary main_v2 main_v3 ((extui 32 · natLt_1_32) : (⟨S16x128x128, .i1⟩ : BufTy).Contents (Elt F) → (⟨S16x128x128, .i32⟩ : BufTy).Contents (Elt F)),
    nullary main_c_0 (constantI S_ 32 0#32),
    binary main_v3 main_c_0 main_v4 ((fun x v => Host.reduce IntOp.addi x v reducesTo_S16x128x128_S16x128_d2 h_S_) : (⟨S16x128x128, .i32⟩ : BufTy).Contents (Elt F) → (⟨S_, .i32⟩ : BufTy).Contents (Elt F) → (⟨S16x128, .i32⟩ : BufTy).Contents (Elt F)),
    unary main_v4 main_v5 (sitofp .f32 : (⟨S16x128, .i32⟩ : BufTy).Contents (Elt F) → (⟨S16x128, .f32⟩ : BufTy).Contents (Elt F)) ]

/-- The next ten: the neighbours' lane sums, the divisor, the mean, and the own lane sums. -/
abbrev opsMean : List (HloOp τ sig (Elt F)) :=
  [ nullary main_cst_1 (constant S_ .f32 0x00000000#32),
    binary main_arg1 main_cst_1 main_v6 ((fun x v => Host.reduceAdd x v reducesTo_S16x128x128x256_S16x128x256_d2 h_S_) : (⟨S16x128x128x256, .f32⟩ : BufTy).Contents (Elt F) → (⟨S_, .f32⟩ : BufTy).Contents (Elt F) → (⟨S16x128x256, .f32⟩ : BufTy).Contents (Elt F)),
    nullary main_cst_2 (constant S_ .f32 0x3F800000#32),
    unary main_cst_2 main_v7 (broadcastInDim S16x128 ![] bcast_S_S16x128 : (⟨S_, .f32⟩ : BufTy).Contents (Elt F) → (⟨S16x128, .f32⟩ : BufTy).Contents (Elt F)),
    binary main_v5 main_v7 main_v8 (maximumf : (⟨S16x128, .f32⟩ : BufTy).Contents (Elt F) → (⟨S16x128, .f32⟩ : BufTy).Contents (Elt F) → (⟨S16x128, .f32⟩ : BufTy).Contents (Elt F)),
    unary main_v8 main_v9 (broadcastInDim S16x128x1 ![0, 1] bcast_S16x128_S16x128x1_0_1 : (⟨S16x128, .f32⟩ : BufTy).Contents (Elt F) → (⟨S16x128x1, .f32⟩ : BufTy).Contents (Elt F)),
    unary main_v9 main_v10 (broadcastInDim S16x128x256 ![0, 1, 2] bcast_S16x128x1_S16x128x256_0_1_2 : (⟨S16x128x1, .f32⟩ : BufTy).Contents (Elt F) → (⟨S16x128x256, .f32⟩ : BufTy).Contents (Elt F)),
    binary main_v6 main_v10 main_v11 (Host.divf : (⟨S16x128x256, .f32⟩ : BufTy).Contents (Elt F) → (⟨S16x128x256, .f32⟩ : BufTy).Contents (Elt F) → (⟨S16x128x256, .f32⟩ : BufTy).Contents (Elt F)),
    nullary main_cst_3 (constant S_ .f32 0x00000000#32),
    binary main_arg0 main_cst_3 main_v12 ((fun x v => Host.reduceAdd x v reducesTo_S16x128x128x256_S16x128x256_d2 h_S_) : (⟨S16x128x128x256, .f32⟩ : BufTy).Contents (Elt F) → (⟨S_, .f32⟩ : BufTy).Contents (Elt F) → (⟨S16x128x256, .f32⟩ : BufTy).Contents (Elt F)) ]

/-- The next seven: the hidden rows, the product with the weight matrix, the bias, and the slope word. -/
abbrev opsAffine : List (HloOp τ sig (Elt F)) :=
  [ binary main_v12 main_v11 main_v13 ((fun a b => concatenate S16x128x512 2 [⟨S16x128x256, a⟩, ⟨S16x128x256, b⟩] concatenates_S16x128x256_S16x128x256_S16x128x512_d2) : (⟨S16x128x256, .f32⟩ : BufTy).Contents (Elt F) → (⟨S16x128x256, .f32⟩ : BufTy).Contents (Elt F) → (⟨S16x128x512, .f32⟩ : BufTy).Contents (Elt F)),
    reshape main_v13 main_v14 rfl shapeCasts_S16x128x512_S2048x512,
    binary main_v14 main_arg2 main_v15 ((fun l r => Host.dotGeneral dot_S2048x512_S512x256_S2048x256_1_0_0_1_n_n none l r) : (⟨S2048x512, .f32⟩ : BufTy).Contents (Elt F) → (⟨S512x256, .f32⟩ : BufTy).Contents (Elt F) → (⟨S2048x256, .f32⟩ : BufTy).Contents (Elt F)),
    unary main_arg3 main_v16 (broadcastInDim S1x256 ![1] bcast_S256_S1x256_1 : (⟨S256, .f32⟩ : BufTy).Contents (Elt F) → (⟨S1x256, .f32⟩ : BufTy).Contents (Elt F)),
    unary main_v16 main_v17 (broadcastInDim S2048x256 ![0, 1] bcast_S1x256_S2048x256_0_1 : (⟨S1x256, .f32⟩ : BufTy).Contents (Elt F) → (⟨S2048x256, .f32⟩ : BufTy).Contents (Elt F)),
    binary main_v15 main_v17 main_v18 (addf : (⟨S2048x256, .f32⟩ : BufTy).Contents (Elt F) → (⟨S2048x256, .f32⟩ : BufTy).Contents (Elt F) → (⟨S2048x256, .f32⟩ : BufTy).Contents (Elt F)),
    nullary main_cst_4 (constant S_ .f32 0x3C23D70A#32) ]

/-- The rectifier's seven operations. -/
abbrev opsRect : List (HloOp τ sig (Elt F)) :=
  [ TRef.nullary main_call0.cst (constant S_ .f32 0x00000000#32),
    TRef.unary main_call0.cst main_call0.v0 (broadcastInDim S2048x256 ![] bcast_S_S2048x256),
    TRef.binary (.of main_v18) main_call0.v0 main_call0.v1 (cmpf .oge),
    TRef.unary (.of main_cst_4) main_call0.v2 id,
    TRef.unary main_call0.v2 main_call0.v3 (broadcastInDim S2048x256 ![] bcast_S_S2048x256),
    TRef.binary main_call0.v3 (.of main_v18) main_call0.v4 mulf,
    TRef.ternary main_call0.v1 (.of main_v18) main_call0.v4 main_call0.call0.v0 select ]

theorem ops_split : (ops (F := F)) = opsCount ++ (opsMean ++ (opsAffine ++ opsRect)) := rfl

/-- Two lines one after the other. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

end Cert.ReferenceIdeal.RefValue

end
-- ==== Proof.RefFoldCount.lean ====
/-
  The first stretch, folded from any contents: the count's buffer holds `count` of the neighbour array, and the argument
  buffers are not written.
-/
import proofs.«104938_j38774964748866_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce broadcastInDim in
/-- After the first stretch the count's buffer holds `count` of the neighbours' buffer. -/
theorem afterCount_v5 (W : Valuation τ sig (Elt F)) :
    after opsCount W (main_v5 : DevRef τ sig) = count (W (main_arg1 : DevRef τ sig)) := by
  after_results_simp
  rfl

theorem afterCount_arg0 (W : Valuation τ sig (Elt F)) :
    after opsCount W (main_arg0 : DevRef τ sig) = W (main_arg0 : DevRef τ sig) := by
  after_results_simp
theorem afterCount_arg1 (W : Valuation τ sig (Elt F)) :
    after opsCount W (main_arg1 : DevRef τ sig) = W (main_arg1 : DevRef τ sig) := by
  after_results_simp
theorem afterCount_arg2 (W : Valuation τ sig (Elt F)) :
    after opsCount W (main_arg2 : DevRef τ sig) = W (main_arg2 : DevRef τ sig) := by
  after_results_simp
theorem afterCount_arg3 (W : Valuation τ sig (Elt F)) :
    after opsCount W (main_arg3 : DevRef τ sig) = W (main_arg3 : DevRef τ sig) := by
  after_results_simp

end Cert.ReferenceIdeal.RefValue

end
-- ==== Proof.RefFoldMean.lean ====
/-
  The second stretch, folded from any contents: the mean's buffer holds the neighbours' lane sums over the divisor built
  from the count's buffer, the own lane sums' buffer holds the lane sums of the own features, and the argument buffers are
  not written.
-/
import proofs.«104938_j38774964748866_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd broadcastInDim in
/-- After the second stretch the mean's buffer holds the neighbours' lane sums over max(count, 1) spread along the lanes,
    the count read from its buffer. -/
theorem afterMean_v11 (W : Valuation τ sig (Elt F)) :
    after opsMean W (main_v11 : DevRef τ sig)
      = Host.divf (laneSums (W (main_arg1 : DevRef τ sig)))
          (broadcastInDim S16x128x256 ![0, 1, 2] bcast_S16x128x1_S16x128x256_0_1_2
            (broadcastInDim S16x128x1 ![0, 1] bcast_S16x128_S16x128x1_0_1
              (maximumf (W (main_v5 : DevRef τ sig)) (broadcastInDim S16x128 ![] bcast_S_S16x128 (constant (F := F) S_ .f32 0x3F800000#32))))) := by
  after_results_simp
  rfl

attribute [local irreducible] Host.reduceAdd in
/-- … and the own lane sums' buffer holds the lane sums of the own features. -/
theorem afterMean_v12 (W : Valuation τ sig (Elt F)) :
    after opsMean W (main_v12 : DevRef τ sig) = laneSums (W (main_arg0 : DevRef τ sig)) := by
  after_results_simp
  rfl

theorem afterMean_arg0 (W : Valuation τ sig (Elt F)) :
    after opsMean W (main_arg0 : DevRef τ sig) = W (main_arg0 : DevRef τ sig) := by
  after_results_simp
theorem afterMean_arg1 (W : Valuation τ sig (Elt F)) :
    after opsMean W (main_arg1 : DevRef τ sig) = W (main_arg1 : DevRef τ sig) := by
  after_results_simp
theorem afterMean_arg2 (W : Valuation τ sig (Elt F)) :
    after opsMean W (main_arg2 : DevRef τ sig) = W (main_arg2 : DevRef τ sig) := by
  after_results_simp
theorem afterMean_arg3 (W : Valuation τ sig (Elt F)) :
    after opsMean W (main_arg3 : DevRef τ sig) = W (main_arg3 : DevRef τ sig) := by
  after_results_simp

end Cert.ReferenceIdeal.RefValue

end
-- ==== Proof.RefFoldAffine.lean ====
/-
  The third stretch, folded from any contents: the affine value's buffer holds the two lane blocks joined, merged into
  rows, times the weight matrix, plus the bias row; the slope's buffer holds the slope word; the argument buffers are not
  written.
-/
import proofs.«104938_j38774964748866_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] concatenate shapeCast broadcastInDim in
/-- After the third stretch the affine value's buffer holds the joined blocks times the weight matrix plus the bias. -/
theorem afterAffine_v18 (W : Valuation τ sig (Elt F)) :
    after opsAffine W (main_v18 : DevRef τ sig)
      = addf (Host.dotGeneral dot_S2048x512_S512x256_S2048x256_1_0_0_1_n_n none
          (shapeCast S2048x512
            (concatenate S16x128x512 2 [⟨S16x128x256, W (main_v12 : DevRef τ sig)⟩, ⟨S16x128x256, W (main_v11 : DevRef τ sig)⟩] concatenates_S16x128x256_S16x128x256_S16x128x512_d2)
            shapeCasts_S16x128x512_S2048x512)
          (W (main_arg2 : DevRef τ sig)))
        (broadcastInDim S2048x256 ![0, 1] bcast_S1x256_S2048x256_0_1 (broadcastInDim S1x256 ![1] bcast_S256_S1x256_1 (W (main_arg3 : DevRef τ sig)))) := by
  after_results_simp
  rfl

/-- … and the slope's buffer holds the slope word. -/
theorem afterAffine_cst_4 (W : Valuation τ sig (Elt F)) :
    after opsAffine W (main_cst_4 : DevRef τ sig) = constant (F := F) S_ .f32 0x3C23D70A#32 := by
  after_results_simp

theorem afterAffine_arg0 (W : Valuation τ sig (Elt F)) :
    after opsAffine W (main_arg0 : DevRef τ sig) = W (main_arg0 : DevRef τ sig) := by
  after_results_simp
theorem afterAffine_arg1 (W : Valuation τ sig (Elt F)) :
    after opsAffine W (main_arg1 : DevRef τ sig) = W (main_arg1 : DevRef τ sig) := by
  after_results_simp
theorem afterAffine_arg2 (W : Valuation τ sig (Elt F)) :
    after opsAffine W (main_arg2 : DevRef τ sig) = W (main_arg2 : DevRef τ sig) := by
  after_results_simp
theorem afterAffine_arg3 (W : Valuation τ sig (Elt F)) :
    after opsAffine W (main_arg3 : DevRef τ sig) = W (main_arg3 : DevRef τ sig) := by
  after_results_simp

end Cert.ReferenceIdeal.RefValue

end
-- ==== Proof.RefFoldRect.lean ====
/-
  The rectifier's seven operations, folded from any contents: the result buffer holds `rectify` of the affine buffer's
  contents with the slope buffer's, and the argument buffers are not written.
-/
import proofs.«104938_j38774964748866_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] broadcastInDim in
/-- The rectifier's operations, from any contents, leave in the result buffer `rectify` of the affine buffer's contents
    with the slope buffer's contents: the casts of the typed references are the identity at these literal references. -/
theorem afterRect_v19 (W : Valuation τ sig (Elt F)) :
    after opsRect W (main_v19 : DevRef τ sig) = rectify (W (main_v18 : DevRef τ sig)) (W (main_cst_4 : DevRef τ sig)) := by
  after_results_simp
  rfl

theorem afterRect_arg0 (W : Valuation τ sig (Elt F)) :
    after opsRect W (main_arg0 : DevRef τ sig) = W (main_arg0 : DevRef τ sig) := by
  after_results_simp
theorem afterRect_arg1 (W : Valuation τ sig (Elt F)) :
    after opsRect W (main_arg1 : DevRef τ sig) = W (main_arg1 : DevRef τ sig) := by
  after_results_simp
theorem afterRect_arg2 (W : Valuation τ sig (Elt F)) :
    after opsRect W (main_arg2 : DevRef τ sig) = W (main_arg2 : DevRef τ sig) := by
  after_results_simp
theorem afterRect_arg3 (W : Valuation τ sig (Elt F)) :
    after opsRect W (main_arg3 : DevRef τ sig) = W (main_arg3 : DevRef τ sig) := by
  after_results_simp

end Cert.ReferenceIdeal.RefValue

end
-- ==== Proof.RefFold.lean ====
/-
  The four stretches put together: the whole line's fold at the result buffer and at the argument buffers.
-/
import proofs.«104938_j38774964748866_2_alg».proof.Proof.RefFoldCount
import proofs.«104938_j38774964748866_2_alg».proof.Proof.RefFoldMean
import proofs.«104938_j38774964748866_2_alg».proof.Proof.RefFoldAffine
import proofs.«104938_j38774964748866_2_alg».proof.Proof.RefFoldRect

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold of all the operations at the result buffer is `result` of the four argument buffers: each stretch's buffers
    are read through the stretches before it down to the launch contents. -/
theorem after_result (V : Valuation τ sig (Elt F)) :
    after (ops (F := F)) V (main_v19 : DevRef τ sig)
      = result (V (main_arg0 : DevRef τ sig)) (V (main_arg1 : DevRef τ sig)) (V (main_arg2 : DevRef τ sig))
          (V (main_arg3 : DevRef τ sig)) := by
  rw [ops_split, after_append, after_append, after_append, afterRect_v19, afterAffine_v18, afterAffine_cst_4,
    afterMean_v12, afterMean_v11, afterMean_arg2, afterMean_arg3, afterCount_v5, afterCount_arg0, afterCount_arg1,
    afterCount_arg2, afterCount_arg3]
  rfl

theorem after_arg0 (V : Valuation τ sig (Elt F)) :
    after (ops (F := F)) V (main_arg0 : DevRef τ sig) = V (main_arg0 : DevRef τ sig) := by
  rw [ops_split, after_append, after_append, after_append, afterRect_arg0, afterAffine_arg0, afterMean_arg0, afterCount_arg0]
theorem after_arg1 (V : Valuation τ sig (Elt F)) :
    after (ops (F := F)) V (main_arg1 : DevRef τ sig) = V (main_arg1 : DevRef τ sig) := by
  rw [ops_split, after_append, after_append, after_append, afterRect_arg1, afterAffine_arg1, afterMean_arg1, afterCount_arg1]
theorem after_arg2 (V : Valuation τ sig (Elt F)) :
    after (ops (F := F)) V (main_arg2 : DevRef τ sig) = V (main_arg2 : DevRef τ sig) := by
  rw [ops_split, after_append, after_append, after_append, afterRect_arg2, afterAffine_arg2, afterMean_arg2, afterCount_arg2]
theorem after_arg3 (V : Valuation τ sig (Elt F)) :
    after (ops (F := F)) V (main_arg3 : DevRef τ sig) = V (main_arg3 : DevRef τ sig) := by
  rw [ops_split, after_append, after_append, after_append, afterRect_arg3, afterAffine_arg3, afterMean_arg3, afterCount_arg3]

end Cert.ReferenceIdeal.RefValue

end
-- ==== Proof.RefCountLaws.lean ====
/-
  Counting with words.

  A disjunction of bits folded by bitwise "or" from the zero bit is the bit of "some one of them is set".  A sum, as
  32-bit integers from zero, of at most 2³¹ − 1 one-bit words widened to 32 bits does not wrap: read as a signed integer
  it is the number of the set bits, and as an extended real that number is the sum of the indicators 1 / 0.
-/
import Idealize.ShloMosaic.Lib.IndicatorCount
import Idealize.ShloMosaic.Lib.WordArith
import Idealize.ShloMosaic.PureOps.Ideal

noncomputable section

open scoped BigOperators

namespace Cert.ReferenceIdeal.RefValue

open Idealize.ShloMosaic

/-- Bits folded by "or" from the zero bit: the bit of "one of them is set". -/
theorem fold_ori_ofBool {ι : Type} (S : Finset ι) (q : ι → Bool) :
    S.fold IntOp.ori 0#1 (fun d => BitVec.ofBool (q d)) = BitVec.ofBool (decide (∃ d ∈ S, q d = true)) := by
  classical
  induction S using Finset.induction_on with
  | empty => simp
  | insert a S ha ih =>
    rw [Finset.fold_insert ha, ih, WordArith.ori_ofBool]
    congr 1
    by_cases h : q a = true
    · simp [h]
    · simp [h]

/-- A sum of indicators 1 / 0 on the extended reals is the number of indices where the condition holds. -/
theorem sum_indicator {ι : Type} (S : Finset ι) (P : ι → Prop) [DecidablePred P] :
    ∑ m ∈ S, (if P m then (1 : EReal) else 0) = (((S.filter P).card : ℝ) : EReal) := by
  classical
  induction S using Finset.induction_on with
  | empty => simp
  | insert a S ha ih =>
    rw [Finset.sum_insert ha, ih, Finset.filter_insert]
    by_cases h : P a
    · rw [if_pos h, if_pos h, Finset.card_insert_of_notMem (fun hm => ha (Finset.mem_filter.1 hm).1)]
      rw [Nat.cast_succ, EReal.coe_add, EReal.coe_one, add_comm]
    · rw [if_neg h, if_neg h, zero_add]

/-- A number below 2³¹ as a 32-bit word reads signed as itself. -/
theorem toInt_ofNat_small (n : ℕ) (hn : n < 2 ^ 31) : (BitVec.ofNat 32 n).toInt = (n : ℤ) := by
  rw [BitVec.toInt_eq_toNat_cond, BitVec.toNat_ofNat]
  have : n % 2 ^ 32 = n := Nat.mod_eq_of_lt (by omega)
  rw [this]
  split
  · rfl
  · omega

/-- The count of the set bits among at most 2³¹ − 1 of them — summed as 32-bit integers, read signed, as an extended
    real — is the sum of the indicators. -/
theorem count_bits {ι : Type} [Fintype ι] (hι : Fintype.card ι < 2 ^ 31) (q : ι → Bool) :
    ((((Finset.univ : Finset ι).fold IntOp.addi 0#32 (fun m => (BitVec.ofBool (q m)).setWidth 32)).toInt : ℝ) : EReal)
      = ∑ m : ι, (if q m = true then (1 : EReal) else 0) := by
  classical
  rw [IndicatorCount.fold_addi_setWidth_eq_card, sum_indicator]
  have hf : (Finset.univ.filter fun m : ι => BitVec.ofBool (q m) = 1#1) = Finset.univ.filter fun m : ι => q m = true :=
    Finset.filter_congr fun m _ => WordArith.ofBool_eq_one_iff _
  rw [hf, toInt_ofNat_small _ (lt_of_le_of_lt (Finset.card_le_univ _) hι)]
  norm_cast

end Cert.ReferenceIdeal.RefValue

end
-- ==== Proof.LibSpreadRank3.lean ====
/-
  `broadcast_in_dim` into a rank-3 array, read at an index given by its three coordinates.

  Four placements a batched computation meets, and the scalar one:
  * a vector [c] placed along the last axis of [1, 1, c] (dims [2]): entry (u, v, k) is the vector's element k;
  * that one row [1, 1, c] spread over [a, b, c] (dims [0, 1, 2]): entry (i, r, k) is the row's element (0, 0, k);
  * a matrix [a, b] given a trailing unit axis, [a, b, 1] (dims [0, 1]): entry (i, r, u) is the matrix's (i, r);
  * a column block [a, b, 1] spread along the last axis to [a, b, c] (dims [0, 1, 2]): entry (i, r, k) is the block's (i, r, 0);
  * a scalar spread to any shape: every entry is the scalar.
  General in the extents and in the element type (an axis of extent one reads coordinate 0 either way, so no extent is
  assumed different from one).
-/
import Idealize.ShloMosaic.Lib.ValueIdx
import Idealize.ShloMosaic.Lib.Pipeline.Value

noncomputable section

namespace Cert.LibSpreadRank3

open Idealize.ShloMosaic Idealize.ShloMosaic.ValueIdx

variable {α : Type}

/-- A vector [c] placed along the last axis of [1, 1, c]: entry (u, v, k) is the vector's element k. -/
theorem vec_last_apply {c : ℕ} (h : (⟨1, ![c]⟩ : Shape).BroadcastsInDim ⟨3, ![1, 1, c]⟩ ![2])
    (x : (⟨1, ![c]⟩ : Shape).Idx → α) (u v : Fin 1) (k : Fin c) :
    broadcastInDim ⟨3, ![1, 1, c]⟩ ![2] h x (ix3 u v k) = x (ix1 k) :=
  broadcastInDim_apply _ h x (ix3 u v k) (ix1 k) (fun a => by
    match a with
    | ⟨0, _⟩ =>
      show k.val = if c = 1 then 0 else k.val
      split
      · have := k.isLt; omega
      · rfl)

/-- The one row [1, 1, c] spread over [a, b, c]: entry (i, r, k) is the row's element (0, 0, k). -/
theorem row_spread_apply {a b c : ℕ} (h : (⟨3, ![1, 1, c]⟩ : Shape).BroadcastsInDim ⟨3, ![a, b, c]⟩ ![0, 1, 2])
    (v : (⟨3, ![1, 1, c]⟩ : Shape).Idx → α) (i : Fin a) (r : Fin b) (k : Fin c) :
    broadcastInDim ⟨3, ![a, b, c]⟩ ![0, 1, 2] h v (ix3 i r k) = v (ix3 (0 : Fin 1) (0 : Fin 1) k) :=
  broadcastInDim_apply _ h v (ix3 i r k) (ix3 (0 : Fin 1) (0 : Fin 1) k) (fun ax => by
    match ax with
    | ⟨0, _⟩ => rfl
    | ⟨1, _⟩ => rfl
    | ⟨2, _⟩ =>
      show k.val = if c = 1 then 0 else k.val
      split
      · have := k.isLt; omega
      · rfl)

/-- A matrix [a, b] given a trailing unit axis: entry (i, r, u) of [a, b, 1] is the matrix's (i, r). -/
theorem mat_unit_last_apply {a b : ℕ} (h : (⟨2, ![a, b]⟩ : Shape).BroadcastsInDim ⟨3, ![a, b, 1]⟩ ![0, 1])
    (x : (⟨2, ![a, b]⟩ : Shape).Idx → α) (i : Fin a) (r : Fin b) (u : Fin 1) :
    broadcastInDim ⟨3, ![a, b, 1]⟩ ![0, 1] h x (ix3 i r u) = x (ix2 i r) :=
  broadcastInDim_apply _ h x (ix3 i r u) (ix2 i r) (fun ax => by
    match ax with
    | ⟨0, _⟩ =>
      show i.val = if a = 1 then 0 else i.val
      split
      · have := i.isLt; omega
      · rfl
    | ⟨1, _⟩ =>
      show r.val = if b = 1 then 0 else r.val
      split
      · have := r.isLt; omega
      · rfl)

/-- A column block [a, b, 1] spread along the last axis: entry (i, r, k) of [a, b, c] is the block's (i, r, 0). -/
theorem col_spread_apply {a b c : ℕ} (h : (⟨3, ![a, b, 1]⟩ : Shape).BroadcastsInDim ⟨3, ![a, b, c]⟩ ![0, 1, 2])
    (v : (⟨3, ![a, b, 1]⟩ : Shape).Idx → α) (i : Fin a) (r : Fin b) (k : Fin c) :
    broadcastInDim ⟨3, ![a, b, c]⟩ ![0, 1, 2] h v (ix3 i r k) = v (ix3 i r (0 : Fin 1)) :=
  broadcastInDim_apply _ h v (ix3 i r k) (ix3 i r (0 : Fin 1)) (fun ax => by
    match ax with
    | ⟨0, _⟩ =>
      show i.val = if a = 1 then 0 else i.val
      split
      · have := i.isLt; omega
      · rfl
    | ⟨1, _⟩ =>
      show r.val = if b = 1 then 0 else r.val
      split
      · have := r.isLt; omega
      · rfl
    | ⟨2, _⟩ => rfl)

/-- A scalar spread to any shape: every entry is the scalar. -/
theorem scalar_spread_apply {t : Shape} (h : (⟨0, ![]⟩ : Shape).BroadcastsInDim t ![])
    (x : (⟨0, ![]⟩ : Shape).Idx → α) (j : t.Idx) :
    broadcastInDim t ![] h x j = x ix0 :=
  broadcastInDim_apply _ h x j ix0 (fun a => a.elim0)

end Cert.LibSpreadRank3

end
-- ==== Proof.RefCount.lean ====
/-
  The reference's count of occupied neighbour slots is the specification's.

  The occupancy bit of slot m of node (b, s) is the bit of "some lane of the slot is not zero"; the count, summed over
  the 128 slots as 32-bit integers and converted to a float, is the sum over the slots of the indicator 1 / 0.
-/
import proofs.«104938_j38774964748866_2_alg».proof.Proof.RefStages
import proofs.«104938_j38774964748866_2_alg».proof.Proof.RefCountLaws
import proofs.«104938_j38774964748866_2_alg».proof.Proof.Spec
import proofs.«104938_j38774964748866_2_alg».proof.Proof.LibSpreadRank3
import Idealize.ShloMosaic.PureOps.Reduce
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

theorem reduces_lanes : S16x128x128x256.Reduces [3] S16x128x128 := by decide
theorem reduces_slots3 : S16x128x128.Reduces [2] S16x128 := by decide

/-- Slot (b, s, m) with lane d inserted is the element (b, s, m, d). -/
theorem lift_lanes (b : Fin 16) (s m : Fin 128) (d : Fin 256) : reduces_lanes.lift (ix3 b s m) d = ix4 b s m d :=
  funext fun ax => Fin.ext (by match ax with | ⟨0, _⟩ => rfl | ⟨1, _⟩ => rfl | ⟨2, _⟩ => rfl | ⟨3, _⟩ => rfl)

/-- Node (b, s) with slot m inserted is the slot (b, s, m). -/
theorem lift_slots3 (b : Fin 16) (s m : Fin 128) : reduces_slots3.lift (ix2 b s) m = ix3 b s m :=
  funext fun ax => Fin.ext (by match ax with | ⟨0, _⟩ => rfl | ⟨1, _⟩ => rfl | ⟨2, _⟩ => rfl)

open Classical in
/-- The occupancy bit of a slot. -/
theorem occupied_apply (nb : FVec Ideal S16x128x128x256 .f32) (b : Fin 16) (s m : Fin 128) :
    occupied (F := Ideal) nb (ix3 b s m) = BitVec.ofBool (decide (∃ d : Fin 256, nb (ix4 b s m d) ≠ 0)) := by
  unfold occupied
  rw [Host.reduce_eq_fold_single IntOp.ori _ _ _ reduces_lanes h_S_ (ix3 b s m)]
  have hx : (cmpf .une nb (broadcastInDim S16x128x128x256 ![] bcast_S_S16x128x128x256 (constant (F := Ideal) S_ .f32 0x00000000#32))
      ∘ reduces_lanes.lift (ix3 b s m)) = fun d : Fin 256 => BitVec.ofBool (decide (nb (ix4 b s m d) ≠ 0)) := by
    refine funext fun (d : Fin 256) => ?_
    show Ideal.cmp .une (nb (reduces_lanes.lift (ix3 b s m) d))
      (broadcastInDim S16x128x128x256 ![] bcast_S_S16x128x128x256 (constant (F := Ideal) S_ .f32 0x00000000#32) (reduces_lanes.lift (ix3 b s m) d)) = _
    rw [lift_lanes, Cert.LibSpreadRank3.scalar_spread_apply, constant_apply, Ideal.ofBits_zero_f32]
    rfl
  rw [hx]
  refine (fold_ori_ofBool Finset.univ _).trans (congrArg BitVec.ofBool (decide_eq_decide.mpr ?_))
  constructor
  · rintro ⟨d, -, h⟩; exact ⟨d, of_decide_eq_true h⟩
  · rintro ⟨d, h⟩; exact ⟨d, Finset.mem_univ _, decide_eq_true h⟩

open Classical in
/-- The count of a node's occupied slots is the specification's count of the node's neighbour data. -/
theorem count_apply (nb : FVec Ideal S16x128x128x256 .f32) (b : Fin 16) (s : Fin 128) :
    count (F := Ideal) nb (ix2 b s) = Cert.Spec.cnt (fun m k => nb (ix4 b s m k)) := by
  unfold count
  rw [sitofp_apply, Host.reduce_eq_fold_single IntOp.addi _ _ _ reduces_slots3 h_S_ (ix2 b s)]
  have hx : (extui 32 (occupied (F := Ideal) nb) natLt_1_32 ∘ reduces_slots3.lift (ix2 b s))
      = fun m : Fin 128 => (BitVec.ofBool (decide (∃ d : Fin 256, nb (ix4 b s m d) ≠ 0))).setWidth 32 := by
    refine funext fun (m : Fin 128) => ?_
    show (occupied (F := Ideal) nb (reduces_slots3.lift (ix2 b s) m)).setWidth 32 = _
    rw [lift_slots3, occupied_apply]
  rw [hx]
  refine (count_bits (by rw [Fintype.card_fin]; exact (by decide : (128 : ℕ) < 2147483648)) _).trans ?_
  unfold Cert.Spec.cnt
  refine Finset.sum_congr rfl fun m _ => ?_
  by_cases h : ∃ d : Fin 256, nb (ix4 b s m d) ≠ 0
  · simp [h]
  · simp [h]

end Cert.ReferenceIdeal.RefValue

end
-- ==== Proof.RefMean.lean ====
/-
  The lane sums, the divisor and the mean, each read at one entry.

  Entry (b, s, k) of the lane sums of a feature array is the sum over the 128 slots m of the array at (b, s, m, k): the
  initial value is the zero word, which is 0.  The divisor at (b, s, k) is max(cnt, 1) for the count of node (b, s),
  whatever the lane k; the mean is the quotient of the two.
-/
import proofs.«104938_j38774964748866_2_alg».proof.Proof.RefCount

noncomputable section

open scoped BigOperators

namespace Cert.ReferenceIdeal.RefValue

open Cert.ReferenceIdeal Cert.ReferenceIdeal.Gen Idealize.ShloMosaic Idealize.ShloMosaic.ValueIdx

theorem reduces_slots4 : S16x128x128x256.Reduces [2] S16x128x256 := by decide

/-- Entry (b, s, k) with slot m inserted is the element (b, s, m, k). -/
theorem lift_slots4 (b : Fin 16) (s : Fin 128) (k : Fin 256) (m : Fin 128) : reduces_slots4.lift (ix3 b s k) m = ix4 b s m k :=
  funext fun ax => Fin.ext (by match ax with | ⟨0, _⟩ => rfl | ⟨1, _⟩ => rfl | ⟨2, _⟩ => rfl | ⟨3, _⟩ => rfl)

/-- The lane sums at one entry: the sum over the slots. -/
theorem laneSums_apply (x : FVec Ideal S16x128x128x256 .f32) (b : Fin 16) (s : Fin 128) (k : Fin 256) :
    laneSums (F := Ideal) x (ix3 b s k) = ∑ m : Fin 128, x (ix4 b s m k) := by
  show Ideal.hostReduceAdd reducesTo_S16x128x128x256_S16x128x256_d2 x (constant (F := Ideal) S_ .f32 0x00000000#32 (Shape.Idx.first h_S_)) (ix3 b s k) = _
  rw [Ideal.hostReduceAdd_single _ reduces_slots4, constant_apply, Ideal.ofBits_zero_f32, zero_add]
  exact Finset.sum_congr rfl fun (m : Fin 128) _ => congrArg x (lift_slots4 b s k m)

/-- The divisor at one entry: the larger of the node's count and one. -/
theorem divisor_apply (nb : FVec Ideal S16x128x128x256 .f32) (b : Fin 16) (s : Fin 128) (k : Fin 256) :
    divisor (F := Ideal) nb (ix3 b s k) = max (Cert.Spec.cnt (fun m d => nb (ix4 b s m d))) Cert.Spec.one := by
  unfold divisor
  rw [Cert.LibSpreadRank3.col_spread_apply, Cert.LibSpreadRank3.mat_unit_last_apply, maximumf_apply, count_apply,
    Cert.LibSpreadRank3.scalar_spread_apply, constant_apply]

/-- The mean at one entry is the specification's mean of the node's neighbour data. -/
theorem mean_apply (nb : FVec Ideal S16x128x128x256 .f32) (b : Fin 16) (s : Fin 128) (k : Fin 256) :
    mean (F := Ideal) nb (ix3 b s k) = Cert.Spec.nmean (fun m d => nb (ix4 b s m d)) k := by
  show Ideal.div (laneSums (F := Ideal) nb (ix3 b s k)) (divisor (F := Ideal) nb (ix3 b s k)) = _
  rw [laneSums_apply, divisor_apply]
  rfl

end Cert.ReferenceIdeal.RefValue

end
-- ==== Proof.LibBatchBlocks.lean ====
/-
  Layout operations and reductions of rank-3 blocks [a, b, c] read at explicit coordinates: what a kernel meets when it
  treats a block of a batches of b rows as one matrix of a·b rows and takes statistics over the batch axis.

  * merging the two leading axes by a shape cast, [a, b, c] → [a·b, c], and splitting them again: row i·b + r of the
    matrix is row r of batch i;
  * one row [1, 1, c], and one matrix [1, b, c], broadcast over the leading axes;
  * at the ideal values, a sum over the batch axis (axis 0) and over the lane axis (axis 2) as sums over that axis's
    coordinates;
  * at the ideal values, a plain matrix product into a zero accumulator as the sum over the contraction coordinate, for
    any dimension numbers that contract the left operand's columns with the right operand's rows;
  * the small casts [a, 1] → [a] and [a] → [1, 1, a].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibBatchBlocks

open Idealize.ShloMosaic Idealize.ShloMosaic.ValueIdx

variable {α : Type}

/-- An [a, b, c] array cast to [n, c] (n = a·b) reads, at row p = i·b + r and column k, the operand at (i, r, k). -/
theorem shapeCast_merge01_apply {a b c n : ℕ} (x : (⟨3, ![a, b, c]⟩ : Shape).Idx → α)
    (h : (⟨3, ![a, b, c]⟩ : Shape).ShapeCasts ⟨2, ![n, c]⟩) (p : Fin n) (i : Fin a) (r : Fin b) (k : Fin c)
    (hp : p.val = i.val * b + r.val) : shapeCast ⟨2, ![n, c]⟩ x h (ix2 p k) = x (ix3 i r k) :=
  shapeCast_apply x h _ _ (by
    rw [Shape.rowMajor_val_three, Shape.rowMajor_val_two]
    show (i.val * b + r.val) * c + k.val = p.val * c + k.val
    rw [hp])

/-- An [n, c] array (n = a·b) cast to [a, b, c] reads, at (i, r, k), the operand at row p = i·b + r and column k. -/
theorem shapeCast_split01_apply {a b c n : ℕ} (x : (⟨2, ![n, c]⟩ : Shape).Idx → α)
    (h : (⟨2, ![n, c]⟩ : Shape).ShapeCasts ⟨3, ![a, b, c]⟩) (p : Fin n) (i : Fin a) (r : Fin b) (k : Fin c)
    (hp : p.val = i.val * b + r.val) : shapeCast ⟨3, ![a, b, c]⟩ x h (ix3 i r k) = x (ix2 p k) :=
  shapeCast_apply x h _ _ (by
    rw [Shape.rowMajor_val_three, Shape.rowMajor_val_two]
    show p.val * c + k.val = (i.val * b + r.val) * c + k.val
    rw [hp])

/-- A row [1, 1, c] broadcast to [a, b, c] reads, at (i, r, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (r : Fin b) (k : Fin c) :
    broadcastTo ⟨3, ![a, b, c]⟩ v h (ix3 i r k) = v (ix3 (0 : Fin 1) (0 : Fin 1) k) := by
  refine broadcastTo_apply v h (ix3 i r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A matrix [1, b, c] broadcast to [a, b, c] reads, at (i, r, k), the matrix at (r, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (r : Fin b) (k : Fin c) :
    broadcastTo ⟨3, ![a, b, c]⟩ v h (ix3 i r k) = v (ix3 (0 : Fin 1) r k) := by
  refine broadcastTo_apply v h (ix3 i r k) (ix3 (0 : Fin 1) r k) fun ax => ?_
  match ax with
  | ⟨0, _⟩ => rfl
  | ⟨1, _⟩ =>
    show r.val = if b = 1 then 0 else r.val
    split
    · have := r.isLt; omega
    · rfl
  | ⟨2, _⟩ =>
    show k.val = if c = 1 then 0 else k.val
    split
    · have := k.isLt; omega
    · rfl

/-- An [a, 1] column cast to the vector [a] reads, at i, the column's entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to [1, 1, a] reads, at (u, v, i), the vector's entry i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- At the ideal values the sum of an [a, b, c] block over its batch axis reads, at (r, k), the sum over the batches i of
    the block at (i, r, k). -/
theorem sum_axis0_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (r : Fin b) (k : Fin c) :
    multiReduction .add [0] ⟨2, ![b, c]⟩ src 0x00000000#32 h hφ hacc (ix2 r k) = ∑ i : Fin a, src (ix3 i r k) := by
  refine (Ideal.multiReduction_add_single src _ h hφ hacc (ix2 r k)).trans ?_
  refine Finset.sum_congr rfl fun i _ => ?_
  exact congrArg src (funext fun ax => Fin.ext (by match ax with | ⟨0, _⟩ => rfl | ⟨1, _⟩ => rfl | ⟨2, _⟩ => rfl))

/-- At the ideal values the sum of an [a, b, c] block over its last axis reads, at (i, r), the sum over k of the block at
    (i, r, k). -/
theorem sum_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (r : Fin b) :
    multiReduction .add [2] ⟨2, ![a, b]⟩ src 0x00000000#32 h hφ hacc (ix2 i r) = ∑ k : Fin c, src (ix3 i r k) := by
  refine (Ideal.multiReduction_add_single src _ h hφ hacc (ix2 i r)).trans ?_
  refine Finset.sum_congr rfl fun k _ => ?_
  exact congrArg src (funext fun ax => Fin.ext (by match ax with | ⟨0, _⟩ => rfl | ⟨1, _⟩ => rfl | ⟨2, _⟩ => rfl))

/-- At the ideal values a matrix product [n, K] × [K, F] into the zero accumulator reads, at (p, f), the sum over the
    contraction coordinate k of left (p, k) times right (k, f) — for any dimension numbers with one contracted axis of
    extent K whose operand indices are the rows of the left operand and the columns of the right one (the four
    coordinate facts, which compute on a literal record). -/
theorem matmul_rows_apply {n K F : ℕ} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ .f32) (r : FVec Ideal ⟨2, ![K, F]⟩ .f32)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibBatchBlocks

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.RefHidden.lean ====
/-
  The hidden rows and the affine value, each read at one entry.

  Row r = 128·b + s of the hidden matrix is node (b, s): its first 256 columns are the node's own lane sums, its last 256
  the neighbours' means.  The product with the weight matrix sums over the 512 columns, which splits into the sum over
  the first 256 against the upper half of the weight matrix and the sum over the last 256 against the lower half; the
  bias row is added to every row.
-/
import proofs.«104938_j38774964748866_2_alg».proof.Proof.RefMean
import proofs.«104938_j38774964748866_2_alg».proof.Proof.LibConcatFeature
import proofs.«104938_j38774964748866_2_alg».proof.Proof.LibBatchBlocks
import proofs.«104938_j38774964748866_2_alg».proof.Proof.LibPlainDot
import proofs.«104938_j38774964748866_2_alg».proof.Proof.LibRowBroadcast

noncomputable section

open scoped BigOperators

namespace Cert.ReferenceIdeal.RefValue

open Cert.ReferenceIdeal Cert.ReferenceIdeal.Gen Idealize.ShloMosaic Idealize.ShloMosaic.ValueIdx

/-- Row r is node r % 128 of batch r / 128. -/
theorem row_split (r : Fin 2048) : r.val = (Cert.Spec.rowB r).val * 128 + (Cert.Spec.rowS r).val :=
  (Nat.div_add_mod' r.val 128).symm

/-- A column of the first half of a hidden row: the node's own lane sum. -/
theorem hidden_upper (x nb : FVec Ideal S16x128x128x256 .f32) (r : Fin 2048) (k : Fin 256) :
    hidden (F := Ideal) x nb (ix2 r (Cert.Spec.upper k)) = ∑ m : Fin 128, x (ix4 (Cert.Spec.rowB r) (Cert.Spec.rowS r) m k) := by
  unfold hidden
  rw [Cert.LibBatchBlocks.shapeCast_merge01_apply _ _ r (Cert.Spec.rowB r) (Cert.Spec.rowS r) (Cert.Spec.upper k) (row_split r)]
  refine (Cert.LibConcatFeature.concat3_left (laneSums (F := Ideal) x) (mean (F := Ideal) nb)
    concatenates_S16x128x256_S16x128x256_S16x128x512_d2 (Cert.Spec.rowB r) (Cert.Spec.rowS r) k (Cert.Spec.upper k).isLt).trans ?_
  exact laneSums_apply x _ _ k

/-- A column of the second half of a hidden row: the neighbours' mean. -/
theorem hidden_lower (x nb : FVec Ideal S16x128x128x256 .f32) (r : Fin 2048) (k : Fin 256) :
    hidden (F := Ideal) x nb (ix2 r (Cert.Spec.lower k))
      = Cert.Spec.nmean (fun m d => nb (ix4 (Cert.Spec.rowB r) (Cert.Spec.rowS r) m d)) k := by
  unfold hidden
  rw [Cert.LibBatchBlocks.shapeCast_merge01_apply _ _ r (Cert.Spec.rowB r) (Cert.Spec.rowS r) (Cert.Spec.lower k) (row_split r)]
  refine (Cert.LibConcatFeature.concat3_right (laneSums (F := Ideal) x) (mean (F := Ideal) nb)
    concatenates_S16x128x256_S16x128x256_S16x128x512_d2 (Cert.Spec.rowB r) (Cert.Spec.rowS r) k (Cert.Spec.lower k).isLt).trans ?_
  exact mean_apply nb _ _ k

/-- The affine value at one entry. -/
theorem affine_apply (x nb : FVec Ideal S16x128x128x256 .f32) (W : FVec Ideal S512x256 .f32) (bias : FVec Ideal S256 .f32)
    (r : Fin 2048) (o : Fin 256) :
    affine (F := Ideal) x nb W bias (ix2 r o)
      = (∑ k : Fin 256, (∑ m : Fin 128, x (ix4 (Cert.Spec.rowB r) (Cert.Spec.rowS r) m k)) * W (ix2 (Cert.Spec.upper k) o)
          + ∑ k : Fin 256, Cert.Spec.nmean (fun m d => nb (ix4 (Cert.Spec.rowB r) (Cert.Spec.rowS r) m d)) k * W (ix2 (Cert.Spec.lower k) o))
        + bias (ix1 o) := by
  unfold affine
  rw [addf_apply, Cert.LibRowBroadcast.row_mat_apply, Cert.LibRowBroadcast.vec_row_apply]
  congr 1
  refine (Cert.LibPlainDot.dotGeneral_apply dot_S2048x512_S512x256_S2048x256_1_0_0_1_n_n rfl rfl rfl rfl rfl rfl none .single
    (hidden (F := Ideal) x nb) W r o).trans ?_
  refine (Cert.LibConcatFeature.sum_split 256 256 (fun j : Fin (256 + 256) => hidden (F := Ideal) x nb (ix2 r j) * W (ix2 j o))).trans ?_
  congr 1
  · exact Finset.sum_congr rfl fun k _ => congrArg (· * W (ix2 (Cert.Spec.upper k) o)) (hidden_upper x nb r k)
  · exact Finset.sum_congr rfl fun k _ => congrArg (· * W (ix2 (Cert.Spec.lower k) o)) (hidden_lower x nb r k)

end Cert.ReferenceIdeal.RefValue

end
-- ==== Proof.RefValue.lean ====
/-
  The reference program's run ends with the specification's function of its four arguments in the result buffer.

  The rectifier at one entry: the comparison with the zero splat is the bit of 0 ≤ p, the selection keeps p where the bit
  is set and takes slope · p elsewhere, which is p · slope since multiplication of extended reals commutes.  With the
  affine value read at an entry, the result is the specification's row expression of node (r / 128, r % 128) at column o.
-/
import proofs.«104938_j38774964748866_2_alg».proof.Proof.RefFold
import proofs.«104938_j38774964748866_2_alg».proof.Proof.RefHidden

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The rectifier with the slope word, at one entry, is the specification's leaky rectifier of the entry. -/
theorem rectify_apply (p : FVec Ideal S2048x256 .f32) (j : S2048x256.Idx) :
    rectify (F := Ideal) p (constant (F := Ideal) S_ .f32 0x3C23D70A#32) j = Cert.Spec.leaky (p j) := by
  unfold rectify
  rw [select_apply, cmpf_apply, mulf_apply, Cert.LibSpreadRank3.scalar_spread_apply, Cert.LibSpreadRank3.scalar_spread_apply,
    constant_apply]
  show Scalar.select (Ideal.cmp .oge (p j) (Ideal.ofBits .f32 0x00000000#32)) (p j) (Cert.Spec.slope * p j) = _
  rw [Ideal.ofBits_zero_f32]
  unfold Cert.Spec.leaky
  by_cases h : (0 : EReal) ≤ p j
  · rw [if_pos h]
    show Scalar.select (BitVec.ofBool (decide ((0 : EReal) ≤ p j))) (p j) (Cert.Spec.slope * p j) = _
    rw [decide_eq_true h]
    exact select_one _ _
  · rw [if_neg h]
    show Scalar.select (BitVec.ofBool (decide ((0 : EReal) ≤ p j))) (p j) (Cert.Spec.slope * p j) = _
    rw [decide_eq_false h]
    exact (select_zero _ _).trans (mul_comm _ _)

/-- The reference's result is the specification's function of the four arguments. -/
theorem result_eq_G (x nb : FVec Ideal S16x128x128x256 .f32) (W : FVec Ideal S512x256 .f32) (bias : FVec Ideal S256 .f32) :
    result (F := Ideal) x nb W bias = Cert.Spec.G x nb W bias := by
  funext j
  obtain ⟨r, o, rfl⟩ : ∃ (r : Fin 2048) (o : Fin 256), j = ix2 r o := ⟨j 0, j 1, eq_ix2 j⟩
  unfold result
  rw [rectify_apply, affine_apply]
  rfl

/-- From any memory with zero counters every weakly fair execution of the reference program terminates with the
    specification's function of the four argument arrays in the result buffer and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v19).trans ((after_result _).trans (result_eq_G _ _ _ _)),
       (h c main_arg0).trans (after_arg0 _),
       (h c main_arg1).trans (after_arg1 _),
       (h c main_arg2).trans (after_arg2 _),
       (h c main_arg3).trans (after_arg3 _)⟩)
    (run_after m ρ)

end Cert.ReferenceIdeal.RefValue

end
-- ==== Proof.lean ====
/-
  The kernel and its reference compute one function of the four argument arrays, on the extended reals.

  For a source node r = 128·b + s (one row of the [2048, 256] result) and an output lane o, both programs compute

      leaky ( Σ_k (Σ_m src[b,s,m,k]) · W[k,o]  +  Σ_k ((Σ_m neigh[b,s,m,k]) / max(cnt, 1)) · W[256+k,o]  +  bias[o] ),

  cnt the number of neighbour slots m one of whose 256 lanes is not zero, leaky p = p for p ≥ 0 and p times the word of
  0.01 otherwise (`Cert.Spec.G`, Proof/Spec.lean).

  The kernel walks a 16 × 2 grid; each point reads a [64, 128, 256] tile of each feature array in four runs of 32 slots,
  accumulates the two lane sums and the count run by run, divides, multiplies the two [64, 256] operands with the two halves
  of W (sliced and narrowed on the host before the call: a change of format is the identity here) and writes one [64, 256]
  block of the result.  Regrouping the 128 slots into four runs and the contraction over 512 lanes into two halves only
  uses that addition of extended reals is associative and commutative; the count agrees because the maximum over a
  slot's lanes of the indicator "not zero" is above zero exactly when some lane is not zero, while the reference takes
  the disjunction over the lanes and adds the 0/1 words as 32-bit integers, 128 of which cannot wrap.  No finiteness of the
  inputs is used.

  Proof/KPieces … KOut: one point's block is the block specification of its input blocks.  Proof/KPoints … KArray: the
  blocks tile the result, so the result array is `Spec.G` of the arguments.  Proof/RefRun … RefValue: the reference's
  host operations, read one by one at an index, give `Spec.G` too.  Nothing was rewritten when the kernel was idealized,
  so the fourth conjunct is trivial.
-/
import proofs.«104938_j38774964748866_2_alg».proof.Defs
import proofs.«104938_j38774964748866_2_alg».proof.Proof.Gen.Kernel
import proofs.«104938_j38774964748866_2_alg».proof.Proof.Gen.Kernel.Skeleton
import proofs.«104938_j38774964748866_2_alg».proof.Proof.Gen.Kernel.Launch
import proofs.«104938_j38774964748866_2_alg».proof.Proof.Gen.Kernel.Points
import proofs.«104938_j38774964748866_2_alg».proof.Proof.Gen.Kernel.Frame
import proofs.«104938_j38774964748866_2_alg».proof.Proof.Gen.KernelIdeal
import proofs.«104938_j38774964748866_2_alg».proof.Proof.Gen.KernelIdeal.Skeleton
import proofs.«104938_j38774964748866_2_alg».proof.Proof.Gen.KernelIdeal.Launch
import proofs.«104938_j38774964748866_2_alg».proof.Proof.Gen.KernelIdeal.Points
import proofs.«104938_j38774964748866_2_alg».proof.Proof.Gen.KernelIdeal.Frame
import proofs.«104938_j38774964748866_2_alg».proof.Proof.Gen.KernelIdeal.Value
import proofs.«104938_j38774964748866_2_alg».proof.Proof.Gen.ReferenceIdeal
import proofs.«104938_j38774964748866_2_alg».proof.Proof.Gen.Pre_finite_inputs
import proofs.«104938_j38774964748866_2_alg».proof.Proof.KOut
import proofs.«104938_j38774964748866_2_alg».proof.Proof.KArray
import proofs.«104938_j38774964748866_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with its result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories that agree on the arguments both programs end with the result array at `Spec.G` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run_of Cert.KernelIdeal.KPay.out_eq_Gblk m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
